-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v119)) (v1 : (c : Dev Cert.KernelIdeal.nD) → Buf (Elt Ideal) ((c.tc : Thread Cert.KernelIdeal.nD Cert.KernelIdeal.τ).loc Cert.KernelIdeal.main_v122)) (v2 : (c : Dev Cert.KernelIdeal.nD) → Buf (Elt Ideal) ((c.tc : Thread Cert.KernelIdeal.nD Cert.KernelIdeal.τ).loc Cert.KernelIdeal.main_v96)) (v3 : (c : Dev Cert.KernelIdeal.nD) → Buf (Elt Ideal) ((c.tc : Thread Cert.KernelIdeal.nD Cert.KernelIdeal.τ).loc Cert.KernelIdeal.main_v86)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v119) = v0 c
          ∧ r.2.mem ((c.tc : Thread Cert.KernelIdeal.nD Cert.KernelIdeal.τ).loc Cert.KernelIdeal.main_v122) = v1 c
          ∧ r.2.mem ((c.tc : Thread Cert.KernelIdeal.nD Cert.KernelIdeal.τ).loc Cert.KernelIdeal.main_v96) = v2 c
          ∧ r.2.mem ((c.tc : Thread Cert.KernelIdeal.nD Cert.KernelIdeal.τ).loc Cert.KernelIdeal.main_v86) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v135) = v0 c
          ∧ r.2.mem ((c.tc : Thread Cert.ReferenceIdeal.nD Cert.ReferenceIdeal.τ).loc Cert.ReferenceIdeal.main_v138) = v1 c
          ∧ r.2.mem ((c.tc : Thread Cert.ReferenceIdeal.nD Cert.ReferenceIdeal.τ).loc Cert.ReferenceIdeal.main_v105) = v2 c
          ∧ r.2.mem ((c.tc : Thread Cert.ReferenceIdeal.nD Cert.ReferenceIdeal.τ).loc Cert.ReferenceIdeal.main_v95) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000x64 : Shape := ⟨2, ![50000, 64]⟩
abbrev S128x64 : Shape := ⟨2, ![128, 64]⟩
abbrev S64 : Shape := ⟨1, ![64]⟩
abbrev S2x64x64 : Shape := ⟨3, ![2, 64, 64]⟩
abbrev S2x64 : Shape := ⟨2, ![2, 64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S2x64x64 : S_.BroadcastsInDim S2x64x64 (![] : Fin 0 → Fin S2x64x64.rank)
  reducesTo_S2x64x64_S_d0_1_2 : S2x64x64.ReducesTo [0, 1, 2] S_
  bcast_S_S2x64 : S_.BroadcastsInDim S2x64 (![] : Fin 0 → Fin S2x64.rank)
  reducesTo_S2x64_S_d0_1 : S2x64.ReducesTo [0, 1] S_

variable [Facts]

def fn_part1 {F : FTy → Type} [FloatOps F] (main_arg7 : FVec F S2x64 .f32) (main_v13 : IVec S_ 1) (main_v16 : IVec S2x64x64 1) : IVec S_ 1 :=
  let main_c_5 : IVec S_ 1 := constantI S_ 1 1#1
  let main_v17 : IVec S_ 1 := (fun x v => Host.reduce IntOp.andi x v reducesTo_S2x64x64_S_d0_1_2 h_S_) main_v16 main_c_5
  let main_v18 : IVec S_ 1 := andi main_v13 main_v17
  let main_v19 : FVec F S2x64 .f32 := Host.absf main_arg7
  let main_cst_6 : FVec F S_ .f32 := constant S_ .f32 0x7F800000#32
  let main_v20 : FVec F S2x64 .f32 := broadcastInDim S2x64 ![] bcast_S_S2x64 main_cst_6
  let main_v21 : IVec S2x64 1 := cmpf .olt main_v19 main_v20
  let main_c_7 : IVec S_ 1 := constantI S_ 1 1#1
  let main_v22 : IVec S_ 1 := (fun x v => Host.reduce IntOp.andi x v reducesTo_S2x64_S_d0_1 h_S_) main_v21 main_c_7
  let main_v23 : IVec S_ 1 := andi main_v18 main_v22
  main_v23

def fn {F : FTy → Type} [FloatOps F] (main_arg0 : FVec F S50000x128 .f32) (main_arg1 : IVec S2x800000 32) (main_arg2 : IVec S50000x128 32) (main_arg3 : IVec S50000x64 32) (main_arg4 : FVec F S128x64 .f32) (main_arg5 : FVec F S64 .f32) (main_arg6 : FVec F S2x64x64 .f32) (main_arg7 : FVec F S2x64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg4
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg5
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S2x64x64 .f32 := Host.absf main_arg6
  let main_cst_4 : FVec F S_ .f32 := constant S_ .f32 0x7F800000#32
  let main_v15 : FVec F S2x64x64 .f32 := broadcastInDim S2x64x64 ![] bcast_S_S2x64x64 main_cst_4
  let main_v16 : IVec S2x64x64 1 := cmpf .olt main_v14 main_v15
  fn_part1 (F := F) main_arg7 main_v13 main_v16
-- ==== Kernel.lean ====
abbrev S50000x128 : Shape := ⟨2, ![50000, 128]⟩
abbrev S2x800000 : Shape := ⟨2, ![2, 800000]⟩
abbrev S50000x64 : Shape := ⟨2, ![50000, 64]⟩
abbrev S128x64 : Shape := ⟨2, ![128, 64]⟩
abbrev S64 : Shape := ⟨1, ![64]⟩
abbrev S2x64x64 : Shape := ⟨3, ![2, 64, 64]⟩
abbrev S2x64 : Shape := ⟨2, ![2, 64]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S1x64 : Shape := ⟨2, ![1, 64]⟩
abbrev S5000x128 : Shape := ⟨2, ![5000, 128]⟩
abbrev S5000x64 : Shape := ⟨2, ![5000, 64]⟩
abbrev S850000x64 : Shape := ⟨2, ![850000, 64]⟩
abbrev S850000x128 : Shape := ⟨2, ![850000, 128]⟩
abbrev S5000 : Shape := ⟨1, ![5000]⟩
abbrev S5000x1 : Shape := ⟨2, ![5000, 1]⟩
abbrev S50000x1 : Shape := ⟨2, ![50000, 1]⟩
abbrev S1x64x64 : Shape := ⟨3, ![1, 64, 64]⟩
abbrev S64x64 : Shape := ⟨2, ![64, 64]⟩
abbrev S50000x2 : Shape := ⟨2, ![50000, 2]⟩

abbrev nBuf : Space → Nat
  | .hbm => 160
  | .vmem => 38
  | .smem => 0
  | _ => 0

abbrev hbmTy0_0 (i : Nat) : BufTy := match i % 128 with
  | 0 => ⟨S50000x128, .f32⟩
  | 1 => ⟨S2x800000, .i32⟩
  | 2 => ⟨S50000x128, .i32⟩
  | 3 => ⟨S50000x64, .i32⟩
  | 4 => ⟨S128x64, .f32⟩
  | 5 => ⟨S64, .f32⟩
  | 6 => ⟨S2x64x64, .f32⟩
  | 7 => ⟨S2x64, .f32⟩
  | 8 => ⟨S1x800000, .i32⟩
  | 9 => ⟨S800000, .i32⟩
  | 10 => ⟨S1x800000, .i32⟩
  | 11 => ⟨S800000, .i32⟩
  | 12 => ⟨S50000, .i32⟩
  | 13 => ⟨S850000, .i32⟩
  | 14 => ⟨S850000, .i32⟩
  | 15 => ⟨S_, .f32⟩
  | 16 => ⟨S850000, .f32⟩
  | 17 => ⟨S_, .f32⟩
  | 18 => ⟨S50000, .f32⟩
  | 19 => ⟨S850000x1, .i32⟩
  | 20 => ⟨S50000, .f32⟩
  | 21 => ⟨S_, .f32⟩
  | 22 => ⟨S50000, .f32⟩
  | 23 => ⟨S50000, .i1⟩
  | 24 => ⟨S_, .f32⟩
  | 25 => ⟨S50000, .f32⟩
  | 26 => ⟨S50000, .f32⟩
  | 27 => ⟨S50000, .f32⟩
  | 28 => ⟨S_, .f32⟩
  | 29 => ⟨S_, .f32⟩
  | 30 => ⟨S50000, .f32⟩
  | 31 => ⟨S50000, .f32⟩
  | 32 => ⟨S_, .i32⟩
  | 33 => ⟨S850000, .i32⟩
  | 34 => ⟨S850000, .i1⟩
  | 35 => ⟨S_, .i32⟩
  | 36 => ⟨S850000, .i32⟩
  | 37 => ⟨S850000, .i32⟩
  | 38 => ⟨S850000, .i32⟩
  | 39 => ⟨S850000x1, .i32⟩
  | 40 => ⟨S850000, .f32⟩
  | 41 => ⟨S_, .i32⟩
  | 42 => ⟨S850000, .i32⟩
  | 43 => ⟨S850000, .i1⟩
  | 44 => ⟨S_, .i32⟩
  | 45 => ⟨S850000, .i32⟩
  | 46 => ⟨S850000, .i32⟩
  | 47 => ⟨S850000, .i32⟩
  | 48 => ⟨S850000x1, .i32⟩
  | 49 => ⟨S850000, .f32⟩
  | 50 => ⟨S850000, .f32⟩
  | 51 => ⟨S1x64, .f32⟩
  | 52 => ⟨S50000x64, .f32⟩
  | 53 => ⟨S_, .i32⟩
  | 54 => ⟨S850000, .i32⟩
  | 55 => ⟨S850000, .i1⟩
  | 56 => ⟨S_, .i32⟩
  | 57 => ⟨S850000, .i32⟩
  | 58 => ⟨S850000, .i32⟩
  | 59 => ⟨S850000, .i32⟩
  | 60 => ⟨S850000x1, .i32⟩
  | 61 => ⟨S850000x64, .i32⟩
  | 62 => ⟨S_, .i32⟩
  | 63 => ⟨S50000x64, .i32⟩
  | 64 => ⟨S850000x1, .i32⟩
  | 65 => ⟨S50000x64, .i32⟩
  | 66 => ⟨S_, .i32⟩
  | 67 => ⟨S850000, .i32⟩
  | 68 => ⟨S850000, .i1⟩
  | 69 => ⟨S_, .i32⟩
  | 70 => ⟨S850000, .i32⟩
  | 71 => ⟨S850000, .i32⟩
  | 72 => ⟨S850000, .i32⟩
  | 73 => ⟨S850000x1, .i32⟩
  | 74 => ⟨S850000x128, .i32⟩
  | 75 => ⟨S_, .i32⟩
  | 76 => ⟨S50000x128, .i32⟩
  | 77 => ⟨S850000x1, .i32⟩
  | 78 => ⟨S50000x128, .i32⟩
  | 79 => ⟨S50000x128, .f32⟩
  | 80 => ⟨S50000x1, .f32⟩
  | 81 => ⟨S50000, .f32⟩
  | 82 => ⟨S1x64x64, .f32⟩
  | 83 => ⟨S64x64, .f32⟩
  | 84 => ⟨S50000x64, .f32⟩
  | 85 => ⟨S_, .i32⟩
  | 86 => ⟨S850000, .i32⟩
  | 87 => ⟨S850000, .i1⟩
  | 88 => ⟨S_, .i32⟩
  | 89 => ⟨S850000, .i32⟩
  | 90 => ⟨S850000, .i32⟩
  | 91 => ⟨S850000, .i32⟩
  | 92 => ⟨S850000x1, .i32⟩
  | 93 => ⟨S850000x64, .f32⟩
  | 94 => ⟨S850000x1, .f32⟩
  | 95 => ⟨S850000x64, .f32⟩
  | 96 => ⟨S850000x64, .f32⟩
  | 97 => ⟨S_, .f32⟩
  | 98 => ⟨S50000x64, .f32⟩
  | 99 => ⟨S850000x1, .i32⟩
  | 100 => ⟨S50000x64, .f32⟩
  | 101 => ⟨S1x64, .f32⟩
  | 102 => ⟨S64, .f32⟩
  | 103 => ⟨S1x64, .f32⟩
  | 104 => ⟨S50000x64, .f32⟩
  | 105 => ⟨S_, .i32⟩
  | 106 => ⟨S850000, .i32⟩
  | 107 => ⟨S850000, .i1⟩
  | 108 => ⟨S_, .i32⟩
  | 109 => ⟨S850000, .i32⟩
  | 110 => ⟨S850000, .i32⟩
  | 111 => ⟨S850000, .i32⟩
  | 112 => ⟨S850000x1, .i32⟩
  | 113 => ⟨S850000x64, .i32⟩
  | 114 => ⟨S_, .i32⟩
  | 115 => ⟨S50000x64, .i32⟩
  | 116 => ⟨S850000x1, .i32⟩
  | 117 => ⟨S50000x64, .i32⟩
  | 118 => ⟨S_, .i32⟩
  | 119 => ⟨S850000, .i32⟩
  | 120 => ⟨S850000, .i1⟩
  | 121 => ⟨S_, .i32⟩
  | 122 => ⟨S850000, .i32⟩
  | 123 => ⟨S850000, .i32⟩
  | 124 => ⟨S850000, .i32⟩
  | 125 => ⟨S850000x1, .i32⟩
  | 126 => ⟨S850000x128, .i32⟩
  | 127 => ⟨S_, .i32⟩
  | _ => ⟨S50000x128, .f32⟩

abbrev hbmTy0_1 (i : Nat) : BufTy := match i % 128 with
  | 0 => ⟨S50000x128, .i32⟩
  | 1 => ⟨S850000x1, .i32⟩
  | 2 => ⟨S50000x128, .i32⟩
  | 3 => ⟨S50000x128, .f32⟩
  | 4 => ⟨S50000x1, .f32⟩
  | 5 => ⟨S50000, .f32⟩
  | 6 => ⟨S1x64x64, .f32⟩
  | 7 => ⟨S64x64, .f32⟩
  | 8 => ⟨S50000x64, .f32⟩
  | 9 => ⟨S_, .i32⟩
  | 10 => ⟨S850000, .i32⟩
  | 11 => ⟨S850000, .i1⟩
  | 12 => ⟨S_, .i32⟩
  | 13 => ⟨S850000, .i32⟩
  | 14 => ⟨S850000, .i32⟩
  | 15 => ⟨S850000, .i32⟩
  | 16 => ⟨S850000x1, .i32⟩
  | 17 => ⟨S850000x64, .f32⟩
  | 18 => ⟨S850000x1, .f32⟩
  | 19 => ⟨S850000x64, .f32⟩
  | 20 => ⟨S850000x64, .f32⟩
  | 21 => ⟨S_, .f32⟩
  | 22 => ⟨S50000x64, .f32⟩
  | 23 => ⟨S850000x1, .i32⟩
  | 24 => ⟨S50000x64, .f32⟩
  | 25 => ⟨S1x64, .f32⟩
  | 26 => ⟨S64, .f32⟩
  | 27 => ⟨S1x64, .f32⟩
  | 28 => ⟨S50000x64, .f32⟩
  | 29 => ⟨S50000x1, .f32⟩
  | 30 => ⟨S50000x1, .f32⟩
  | 31 => ⟨S50000x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S5000x64, .i32⟩
  | .local _ .vmem, ⟨7, _⟩ => ⟨S5000x64, .i32⟩
  | .local _ .vmem, ⟨8, _⟩ => ⟨S5000x128, .f32⟩
  | .local _ .vmem, ⟨9, _⟩ => ⟨S5000x128, .f32⟩
  | .local _ .vmem, ⟨10, _⟩ => ⟨S5000x64, .f32⟩
  | .local _ .vmem, ⟨11, _⟩ => ⟨S5000x64, .f32⟩
  | .local _ .vmem, ⟨12, _⟩ => ⟨S64x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | .local _ .vmem, ⟨22, _⟩ => ⟨S5000x64, .i32⟩
  | .local _ .vmem, ⟨23, _⟩ => ⟨S5000x64, .i32⟩
  | .local _ .vmem, ⟨24, _⟩ => ⟨S5000x128, .f32⟩
  | .local _ .vmem, ⟨25, _⟩ => ⟨S5000x128, .f32⟩
  | .local _ .vmem, ⟨26, _⟩ => ⟨S5000x64, .f32⟩
  | .local _ .vmem, ⟨27, _⟩ => ⟨S5000x64, .f32⟩
  | .local _ .vmem, ⟨28, _⟩ => ⟨S64x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S1x64, .f32⟩
  | .local _ .vmem, ⟨36, _⟩ => ⟨S5000x64, .f32⟩
  | .local _ .vmem, ⟨37, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_c_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_c_9 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_c_10 : Ref sig .tc := ⟨.hbm, 66, rfl⟩
abbrev main_v44 : Ref sig .tc := ⟨.hbm, 67, rfl⟩
abbrev main_v45 : Ref sig .tc := ⟨.hbm, 68, rfl⟩
abbrev main_c_11 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_c_12 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_c_13 : Ref sig .tc := ⟨.hbm, 85, rfl⟩
abbrev main_v60 : Ref sig .tc := ⟨.hbm, 86, rfl⟩
abbrev main_v61 : Ref sig .tc := ⟨.hbm, 87, rfl⟩
abbrev main_c_14 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_15 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_c_16 : Ref sig .tc := ⟨.hbm, 105, rfl⟩
abbrev main_v77 : Ref sig .tc := ⟨.hbm, 106, rfl⟩
abbrev main_v78 : Ref sig .tc := ⟨.hbm, 107, rfl⟩
abbrev main_c_17 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_c_18 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_c_19 : Ref sig .tc := ⟨.hbm, 118, rfl⟩
abbrev main_v87 : Ref sig .tc := ⟨.hbm, 119, rfl⟩
abbrev main_v88 : Ref sig .tc := ⟨.hbm, 120, rfl⟩
abbrev main_c_20 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_c_21 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_c_22 : Ref sig .tc := ⟨.hbm, 137, rfl⟩
abbrev main_v103 : Ref sig .tc := ⟨.hbm, 138, rfl⟩
abbrev main_v104 : Ref sig .tc := ⟨.hbm, 139, rfl⟩
abbrev main_c_23 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_cst_24 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg3_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg1_1 : Ref sig .tc := ⟨.vmem, 25, rfl⟩
abbrev cc5_stg0_0 : Ref sig .tc := ⟨.vmem, 26, rfl⟩
abbrev cc5_stg0_1 : Ref sig .tc := ⟨.vmem, 27, rfl⟩
abbrev cc5_stg1_0 : Ref sig .tc := ⟨.vmem, 28, rfl⟩
abbrev cc5_stg2_0 : Ref sig .tc := ⟨.vmem, 29, rfl⟩
abbrev cc5_stg2_1 : Ref sig .tc := ⟨.vmem, 30, rfl⟩
abbrev cc6_stg0_0 : Ref sig .tc := ⟨.vmem, 31, rfl⟩
abbrev cc6_stg0_1 : Ref sig .tc := ⟨.vmem, 32, rfl⟩
abbrev cc6_stg1_0 : Ref sig .tc := ⟨.vmem, 33, rfl⟩
abbrev cc6_stg1_1 : Ref sig .tc := ⟨.vmem, 34, rfl⟩
abbrev cc6_stg2_0 : Ref sig .tc := ⟨.vmem, 35, rfl⟩
abbrev cc6_stg3_0 : Ref sig .tc := ⟨.vmem, 36, rfl⟩
abbrev cc6_stg3_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem1_1 : DmaSem sig := 18
abbrev cc3_sem2_0 : DmaSem sig := 19
abbrev cc3_sem3_0 : DmaSem sig := 20
abbrev cc3_sem3_1 : DmaSem sig := 21
abbrev cc4_sem0_0 : DmaSem sig := 22
abbrev cc4_sem0_1 : DmaSem sig := 23
abbrev cc4_sem1_0 : DmaSem sig := 24
abbrev cc4_sem1_1 : DmaSem sig := 25
abbrev cc5_sem0_0 : DmaSem sig := 26
abbrev cc5_sem0_1 : DmaSem sig := 27
abbrev cc5_sem1_0 : DmaSem sig := 28
abbrev cc5_sem2_0 : DmaSem sig := 29
abbrev cc5_sem2_1 : DmaSem sig := 30
abbrev cc6_sem0_0 : DmaSem sig := 31
abbrev cc6_sem0_1 : DmaSem sig := 32
abbrev cc6_sem1_0 : DmaSem sig := 33
abbrev cc6_sem1_1 : DmaSem sig := 34
abbrev cc6_sem2_0 : DmaSem sig := 35
abbrev cc6_sem3_0 : DmaSem sig := 36
abbrev cc6_sem3_1 : DmaSem sig := 37

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .i32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S50000x64 : S_.BroadcastsInDim S50000x64 (![] : Fin 0 → Fin S50000x64.rank)
  bcast_S_S50000x128 : S_.BroadcastsInDim S50000x128 (![] : Fin 0 → Fin S50000x128.rank)
  shapeCasts_S5000x64_S5000x64 : S5000x64.ShapeCasts S5000x64
  reduces_S5000x64_S5000 : S5000x64.Reduces [1] S5000
  shapeCasts_S5000_S5000x1 : S5000.ShapeCasts S5000x1
  shapeCasts_S5000x1_S5000x1 : S5000x1.ShapeCasts S5000x1
  broadcasts_S5000x1_S5000x128 : S5000x1.Broadcasts S5000x128
  slices_S50000x128_S50000x1_0_0 : S50000x128.Slices ![0, 0] S50000x1
  shapeCasts_S50000x1_S50000 : S50000x1.ShapeCasts S50000
  slices_S2x64x64_S1x64x64_0_0_0 : S2x64x64.Slices ![0, 0, 0] S1x64x64
  shapeCasts_S1x64x64_S64x64 : S1x64x64.ShapeCasts S64x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S850000x1_S850000x64_0_1 : S850000x1.BroadcastsInDim S850000x64 (![0, 1] : Fin 2 → Fin S850000x64.rank)
  slices_S2x64_S1x64_0_0 : S2x64.Slices ![0, 0] S1x64
  shapeCasts_S1x64_S64 : S1x64.ShapeCasts S64
  slices_S2x64x64_S1x64x64_1_0_0 : S2x64x64.Slices ![1, 0, 0] S1x64x64
  slices_S2x64_S1x64_1_0 : S2x64.Slices ![1, 0] S1x64
  bcast_S50000_S50000x1_0 : S50000.BroadcastsInDim S50000x1 (![0] : Fin 1 → Fin S50000x1.rank)
  concatenates_S50000x1_S50000x1_S50000x2_d1 : Shape.Concatenates [S50000x1, S50000x1] S50000x2 1
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .i32 = 32 ∨ (Rect.block (s := S50000x64) S5000x64.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S50000x64.size a
  hwx3_1 : ∀ i : grid3.Coords, EltTy.bits .f32 = 32 ∨ (Rect.block (s := S50000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S50000x64.size a
  hwx3_3 : ∀ i : grid3.Coords, EltTy.bits .f32 = 32 ∨ (Rect.block (s := S50000x64) S5000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .i32 = 32 ∨ (Rect.block (s := S50000x64) S5000x64.size (cc4_transform_0 i) (hinb4_0 i)).WholeWords (EltTy.packing .i32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x64.size a ≤ S64x64.size a
  hwx5_1 : ∀ i : grid5.Coords, EltTy.bits .f32 = 32 ∨ (Rect.block (s := S64x64) S64x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x64.size a ≤ S50000x64.size a
  hwx5_2 : ∀ i : grid5.Coords, EltTy.bits .f32 = 32 ∨ (Rect.block (s := S50000x64) S5000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S50000x64.size a
  hwx6_0 : ∀ i : grid6.Coords, EltTy.bits .f32 = 32 ∨ (Rect.block (s := S50000x64) S5000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x64.size a ≤ S50000x64.size a
  hwx6_1 : ∀ i : grid6.Coords, EltTy.bits .f32 = 32 ∨ (Rect.block (s := S50000x64) S5000x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x64.size a ≤ S50000x64.size a
  hwx6_3 : ∀ i : grid6.Coords, EltTy.bits .f32 = 32 ∨ (Rect.block (s := S50000x64) S5000x64.size (cc6_transform_3 i) (hinb6_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v33) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v43) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v54) S5000x128.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v33) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v58) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v59) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v33) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v72) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v75) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v76) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v86) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v97) S5000x128.size cc4_transform_1 reads4_1 true false 2 stage4_1 sem4_1
    hrank4 hreads4_1 hinb4_1 nbuf4_1 (Memref.isWhole_whole _) hwx4_1 hstage4_1

abbrev win4 : Fin 2 → Pipeline.Window sig grid4 := fun | 0 => win4_0 | 1 => win4_1 | ⟨_ + 2, h⟩ => absurd h (Nat.not_lt.2 (Nat.le_add_left _ _))
abbrev spec4 : Fin 2 → Pipeline.WinSpec sig grid4.rank := fun w => (win4 w).toWinSpec

abbrev win5_0 : Pipeline.Window sig grid5 :=
  Pipeline.Window.ofSpec (Memref.whole main_v76) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v101) S64x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v102) S5000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v76) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v115) S5000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v118) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v119) S5000x64.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000x64 : Shape := ⟨2, ![50000, 64]⟩
abbrev S128x64 : Shape := ⟨2, ![128, 64]⟩
abbrev S64 : Shape := ⟨1, ![64]⟩
abbrev S2x64x64 : Shape := ⟨3, ![2, 64, 64]⟩
abbrev S2x64 : Shape := ⟨2, ![2, 64]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S1x64 : Shape := ⟨2, ![1, 64]⟩
abbrev S850000x64 : Shape := ⟨2, ![850000, 64]⟩
abbrev S850000x128 : Shape := ⟨2, ![850000, 128]⟩
abbrev S1x64x64 : Shape := ⟨3, ![1, 64, 64]⟩
abbrev S64x64 : Shape := ⟨2, ![64, 64]⟩
abbrev S50000x1 : Shape := ⟨2, ![50000, 1]⟩
abbrev S50000x2 : Shape := ⟨2, ![50000, 2]⟩

abbrev nBuf : Space → Nat
  | .hbm => 182
  | .vmem => 0
  | .smem => 0
  | _ => 0

abbrev hbmTy0_0 (i : Nat) : BufTy := match i % 128 with
  | 0 => ⟨S50000x128, .f32⟩
  | 1 => ⟨S2x800000, .i32⟩
  | 2 => ⟨S50000x128, .i32⟩
  | 3 => ⟨S50000x64, .i32⟩
  | 4 => ⟨S128x64, .f32⟩
  | 5 => ⟨S64, .f32⟩
  | 6 => ⟨S2x64x64, .f32⟩
  | 7 => ⟨S2x64, .f32⟩
  | 8 => ⟨S1x800000, .i32⟩
  | 9 => ⟨S800000, .i32⟩
  | 10 => ⟨S1x800000, .i32⟩
  | 11 => ⟨S800000, .i32⟩
  | 12 => ⟨S50000, .i32⟩
  | 13 => ⟨S850000, .i32⟩
  | 14 => ⟨S850000, .i32⟩
  | 15 => ⟨S_, .f32⟩
  | 16 => ⟨S850000, .f32⟩
  | 17 => ⟨S_, .f32⟩
  | 18 => ⟨S50000, .f32⟩
  | 19 => ⟨S850000x1, .i32⟩
  | 20 => ⟨S50000, .f32⟩
  | 21 => ⟨S_, .f32⟩
  | 22 => ⟨S50000, .f32⟩
  | 23 => ⟨S50000, .i1⟩
  | 24 => ⟨S_, .f32⟩
  | 25 => ⟨S50000, .f32⟩
  | 26 => ⟨S50000, .f32⟩
  | 27 => ⟨S50000, .f32⟩
  | 28 => ⟨S_, .f32⟩
  | 29 => ⟨S_, .f32⟩
  | 30 => ⟨S50000, .f32⟩
  | 31 => ⟨S50000, .f32⟩
  | 32 => ⟨S_, .i32⟩
  | 33 => ⟨S850000, .i32⟩
  | 34 => ⟨S850000, .i1⟩
  | 35 => ⟨S_, .i32⟩
  | 36 => ⟨S850000, .i32⟩
  | 37 => ⟨S850000, .i32⟩
  | 38 => ⟨S850000, .i32⟩
  | 39 => ⟨S850000x1, .i32⟩
  | 40 => ⟨S850000, .f32⟩
  | 41 => ⟨S_, .i32⟩
  | 42 => ⟨S850000, .i32⟩
  | 43 => ⟨S850000, .i1⟩
  | 44 => ⟨S_, .i32⟩
  | 45 => ⟨S850000, .i32⟩
  | 46 => ⟨S850000, .i32⟩
  | 47 => ⟨S850000, .i32⟩
  | 48 => ⟨S850000x1, .i32⟩
  | 49 => ⟨S850000, .f32⟩
  | 50 => ⟨S850000, .f32⟩
  | 51 => ⟨S50000x64, .f32⟩
  | 52 => ⟨S1x64, .f32⟩
  | 53 => ⟨S50000x64, .f32⟩
  | 54 => ⟨S50000x64, .f32⟩
  | 55 => ⟨S_, .i32⟩
  | 56 => ⟨S850000, .i32⟩
  | 57 => ⟨S850000, .i1⟩
  | 58 => ⟨S_, .i32⟩
  | 59 => ⟨S850000, .i32⟩
  | 60 => ⟨S850000, .i32⟩
  | 61 => ⟨S850000, .i32⟩
  | 62 => ⟨S850000x1, .i32⟩
  | 63 => ⟨S850000x64, .i32⟩
  | 64 => ⟨S_, .i32⟩
  | 65 => ⟨S50000x64, .i32⟩
  | 66 => ⟨S850000x1, .i32⟩
  | 67 => ⟨S50000x64, .i32⟩
  | 68 => ⟨S_, .i32⟩
  | 69 => ⟨S850000, .i32⟩
  | 70 => ⟨S850000, .i1⟩
  | 71 => ⟨S_, .i32⟩
  | 72 => ⟨S850000, .i32⟩
  | 73 => ⟨S850000, .i32⟩
  | 74 => ⟨S850000, .i32⟩
  | 75 => ⟨S850000x1, .i32⟩
  | 76 => ⟨S850000x128, .i32⟩
  | 77 => ⟨S_, .i32⟩
  | 78 => ⟨S50000x128, .i32⟩
  | 79 => ⟨S850000x1, .i32⟩
  | 80 => ⟨S50000x128, .i32⟩
  | 81 => ⟨S50000x64, .f32⟩
  | 82 => ⟨S50000x64, .f32⟩
  | 83 => ⟨S_, .f32⟩
  | 84 => ⟨S50000x64, .f32⟩
  | 85 => ⟨S50000x64, .f32⟩
  | 86 => ⟨S50000x64, .f32⟩
  | 87 => ⟨S_, .f32⟩
  | 88 => ⟨S50000, .f32⟩
  | 89 => ⟨S_, .f32⟩
  | 90 => ⟨S50000, .f32⟩
  | 91 => ⟨S50000, .f32⟩
  | 92 => ⟨S1x64x64, .f32⟩
  | 93 => ⟨S64x64, .f32⟩
  | 94 => ⟨S50000x64, .f32⟩
  | 95 => ⟨S_, .i32⟩
  | 96 => ⟨S850000, .i32⟩
  | 97 => ⟨S850000, .i1⟩
  | 98 => ⟨S_, .i32⟩
  | 99 => ⟨S850000, .i32⟩
  | 100 => ⟨S850000, .i32⟩
  | 101 => ⟨S850000, .i32⟩
  | 102 => ⟨S850000x1, .i32⟩
  | 103 => ⟨S850000x64, .f32⟩
  | 104 => ⟨S850000x1, .f32⟩
  | 105 => ⟨S850000x64, .f32⟩
  | 106 => ⟨S850000x64, .f32⟩
  | 107 => ⟨S_, .f32⟩
  | 108 => ⟨S50000x64, .f32⟩
  | 109 => ⟨S850000x1, .i32⟩
  | 110 => ⟨S50000x64, .f32⟩
  | 111 => ⟨S1x64, .f32⟩
  | 112 => ⟨S64, .f32⟩
  | 113 => ⟨S1x64, .f32⟩
  | 114 => ⟨S50000x64, .f32⟩
  | 115 => ⟨S50000x64, .f32⟩
  | 116 => ⟨S50000x64, .f32⟩
  | 117 => ⟨S_, .i32⟩
  | 118 => ⟨S850000, .i32⟩
  | 119 => ⟨S850000, .i1⟩
  | 120 => ⟨S_, .i32⟩
  | 121 => ⟨S850000, .i32⟩
  | 122 => ⟨S850000, .i32⟩
  | 123 => ⟨S850000, .i32⟩
  | 124 => ⟨S850000x1, .i32⟩
  | 125 => ⟨S850000x64, .i32⟩
  | 126 => ⟨S_, .i32⟩
  | 127 => ⟨S50000x64, .i32⟩
  | _ => ⟨S50000x128, .f32⟩

abbrev hbmTy0_1 (i : Nat) : BufTy := match i % 128 with
  | 0 => ⟨S850000x1, .i32⟩
  | 1 => ⟨S50000x64, .i32⟩
  | 2 => ⟨S_, .i32⟩
  | 3 => ⟨S850000, .i32⟩
  | 4 => ⟨S850000, .i1⟩
  | 5 => ⟨S_, .i32⟩
  | 6 => ⟨S850000, .i32⟩
  | 7 => ⟨S850000, .i32⟩
  | 8 => ⟨S850000, .i32⟩
  | 9 => ⟨S850000x1, .i32⟩
  | 10 => ⟨S850000x128, .i32⟩
  | 11 => ⟨S_, .i32⟩
  | 12 => ⟨S50000x128, .i32⟩
  | 13 => ⟨S850000x1, .i32⟩
  | 14 => ⟨S50000x128, .i32⟩
  | 15 => ⟨S50000x64, .f32⟩
  | 16 => ⟨S50000x64, .f32⟩
  | 17 => ⟨S_, .f32⟩
  | 18 => ⟨S50000x64, .f32⟩
  | 19 => ⟨S50000x64, .f32⟩
  | 20 => ⟨S50000x64, .f32⟩
  | 21 => ⟨S_, .f32⟩
  | 22 => ⟨S50000, .f32⟩
  | 23 => ⟨S_, .f32⟩
  | 24 => ⟨S50000, .f32⟩
  | 25 => ⟨S50000, .f32⟩
  | 26 => ⟨S1x64x64, .f32⟩
  | 27 => ⟨S64x64, .f32⟩
  | 28 => ⟨S50000x64, .f32⟩
  | 29 => ⟨S_, .i32⟩
  | 30 => ⟨S850000, .i32⟩
  | 31 => ⟨S850000, .i1⟩
  | 32 => ⟨S_, .i32⟩
  | 33 => ⟨S850000, .i32⟩
  | 34 => ⟨S850000, .i32⟩
  | 35 => ⟨S850000, .i32⟩
  | 36 => ⟨S850000x1, .i32⟩
  | 37 => ⟨S850000x64, .f32⟩
  | 38 => ⟨S850000x1, .f32⟩
  | 39 => ⟨S850000x64, .f32⟩
  | 40 => ⟨S850000x64, .f32⟩
  | 41 => ⟨S_, .f32⟩
  | 42 => ⟨S50000x64, .f32⟩
  | 43 => ⟨S850000x1, .i32⟩
  | 44 => ⟨S50000x64, .f32⟩
  | 45 => ⟨S1x64, .f32⟩
  | 46 => ⟨S64, .f32⟩
  | 47 => ⟨S1x64, .f32⟩
  | 48 => ⟨S50000x64, .f32⟩
  | 49 => ⟨S50000x64, .f32⟩
  | 50 => ⟨S50000x64, .f32⟩
  | 51 => ⟨S50000x1, .f32⟩
  | 52 => ⟨S50000x1, .f32⟩
  | 53 => ⟨S50000x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_7 : Ref sig .tc := ⟨.hbm, 55, rfl⟩
abbrev main_v36 : Ref sig .tc := ⟨.hbm, 56, rfl⟩
abbrev main_v37 : Ref sig .tc := ⟨.hbm, 57, rfl⟩
abbrev main_c_8 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_c_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_c_10 : Ref sig .tc := ⟨.hbm, 68, rfl⟩
abbrev main_v46 : Ref sig .tc := ⟨.hbm, 69, rfl⟩
abbrev main_v47 : Ref sig .tc := ⟨.hbm, 70, rfl⟩
abbrev main_c_11 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_c_12 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_13 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_14 : Ref sig .tc := ⟨.hbm, 87, rfl⟩
abbrev main_v61 : Ref sig .tc := ⟨.hbm, 88, rfl⟩
abbrev main_cst_15 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_c_16 : Ref sig .tc := ⟨.hbm, 95, rfl⟩
abbrev main_v67 : Ref sig .tc := ⟨.hbm, 96, rfl⟩
abbrev main_v68 : Ref sig .tc := ⟨.hbm, 97, rfl⟩
abbrev main_c_17 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_18 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_c_19 : Ref sig .tc := ⟨.hbm, 117, rfl⟩
abbrev main_v86 : Ref sig .tc := ⟨.hbm, 118, rfl⟩
abbrev main_v87 : Ref sig .tc := ⟨.hbm, 119, rfl⟩
abbrev main_c_20 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_c_21 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_c_22 : Ref sig .tc := ⟨.hbm, 130, rfl⟩
abbrev main_v96 : Ref sig .tc := ⟨.hbm, 131, rfl⟩
abbrev main_v97 : Ref sig .tc := ⟨.hbm, 132, rfl⟩
abbrev main_c_23 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_c_24 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_cst_25 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_cst_26 : Ref sig .tc := ⟨.hbm, 149, rfl⟩
abbrev main_v111 : Ref sig .tc := ⟨.hbm, 150, rfl⟩
abbrev main_cst_27 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_c_28 : Ref sig .tc := ⟨.hbm, 157, rfl⟩
abbrev main_v117 : Ref sig .tc := ⟨.hbm, 158, rfl⟩
abbrev main_v118 : Ref sig .tc := ⟨.hbm, 159, rfl⟩
abbrev main_c_29 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_cst_30 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S_S50000x128 : S_.BroadcastsInDim S50000x128 (![] : Fin 0 → Fin S50000x128.rank)
  reducesTo_S50000x64_S50000_d1 : S50000x64.ReducesTo [1] S50000
  h_S_ : 0 < S_.numel
  slices_S2x64x64_S1x64x64_0_0_0 : S2x64x64.Slices ![0, 0, 0] S1x64x64
  shapeCasts_S1x64x64_S64x64 : S1x64x64.ShapeCasts S64x64
  bcast_S850000x1_S850000x64_0_1 : S850000x1.BroadcastsInDim S850000x64 (![0, 1] : Fin 2 → Fin S850000x64.rank)
  slices_S2x64_S1x64_0_0 : S2x64.Slices ![0, 0] S1x64
  shapeCasts_S1x64_S64 : S1x64.ShapeCasts S64
  slices_S2x64x64_S1x64x64_1_0_0 : S2x64x64.Slices ![1, 0, 0] S1x64x64
  slices_S2x64_S1x64_1_0 : S2x64.Slices ![1, 0] S1x64
  bcast_S50000_S50000x1_0 : S50000.BroadcastsInDim S50000x1 (![0] : Fin 1 → Fin S50000x1.rank)
  concatenates_S50000x1_S50000x1_S50000x2_d1 : Shape.Concatenates [S50000x1, S50000x1] S50000x2 1
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x64_S64x64_S50000x64_1_0_0_1_n_n_wf : DotDims.WF S50000x64 S64x64 S50000x64 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.KRun.lean ====
/-
  The idealized kernel's run with its four results named.

  The program is seven tiled launches among stretches of host operations. Its frame proof carries, through every segment,
  the contents of every unscoped buffer as a fold over the segments: a host stretch rewrites the buffers its operations
  write, a launch leaves in each of its arrays what its write-backs leave. At the end every unscoped buffer holds the
  last stage of that fold. Here the same run is read for the four result buffers as well as for the arguments: each
  result ends at the last stage of the fold at its own reference. What that stage is, as a function of the arguments,
  is the business of the modules that follow.
-/
import proofs.«143144_j24309514895388_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the program terminates, nothing faulting; each
    result buffer ends at the last stage of the fold at its reference, and the arguments end as launched. -/
theorem run_results : θ_run defs (onTc (τ := τ) (main (F := F))) ⟨m, fun _ => 0, ρ⟩ (fun r => ∀ c : Dev nD,
      r.2.mem ((c.tc : Thread nD τ).loc main_v119) = W17 m ρ c (Proc.devRef .tc main_v119)
      ∧ r.2.mem ((c.tc : Thread nD τ).loc main_v122) = W17 m ρ c (Proc.devRef .tc main_v122)
      ∧ r.2.mem ((c.tc : Thread nD τ).loc main_v96) = W17 m ρ c (Proc.devRef .tc main_v96)
      ∧ r.2.mem ((c.tc : Thread nD τ).loc main_v86) = W17 m ρ c (Proc.devRef .tc main_v86)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h c =>
      ⟨h c _ (mem_uc main_v119 (by decide)),
       h c _ (mem_uc main_v122 (by decide)),
       h c _ (mem_uc main_v96 (by decide)),
       h c _ (mem_uc main_v86 (by decide)),
       (h c _ (mem_uc main_arg0 (by decide))).trans (W17_main_arg0 m ρ c),
       (h c _ (mem_uc main_arg1 (by decide))).trans (W17_main_arg1 m ρ c),
       (h c _ (mem_uc main_arg2 (by decide))).trans (W17_main_arg2 m ρ c),
       (h c _ (mem_uc main_arg3 (by decide))).trans (W17_main_arg3 m ρ c),
       (h c _ (mem_uc main_arg4 (by decide))).trans (W17_main_arg4 m ρ c),
       (h c _ (mem_uc main_arg5 (by decide))).trans (W17_main_arg5 m ρ c),
       (h c _ (mem_uc main_arg6 (by decide))).trans (W17_main_arg6 m ρ c),
       (h c _ (mem_uc main_arg7 (by decide))).trans (W17_main_arg7 m ρ c)⟩)

end Cert.KernelIdeal.RunValue

end
-- ==== Proof.PairConcat.lean ====
/-
  A concatenation of two pieces with the pieces as plain arguments.

  The joining operation takes its pieces as a list of (shape, array) pairs, and the proof that the shapes fit is stated
  over that list, so the list cannot be rewritten under the operation. For two pieces the same array is written here
  as a function of the two arrays themselves, with the fitting stated over the two shapes; the arrays can then be
  rewritten one at a time.
-/
import Idealize.ShloMosaic.PureOps.ShapeOps

namespace Cert.Gcn

open Idealize.ShloMosaic

/-- Two arrays joined along axis a of the result shape. -/
def concat2 {α : Type} (t : Shape) (a : Fin t.rank) (s₁ s₂ : Shape) (h : Shape.Concatenates [s₁, s₂] t a)
    (x₁ : s₁.Idx → α) (x₂ : s₂.Idx → α) : t.Idx → α :=
  concatenate t a [⟨s₁, x₁⟩, ⟨s₂, x₂⟩] h

/-- The joining operation on a list of two pieces is that function of the pieces. -/
theorem concatenate_pair_eq {α : Type} (t : Shape) (a : Fin t.rank) (s₁ s₂ : Shape) (x₁ : s₁.Idx → α) (x₂ : s₂.Idx → α)
    (h : Shape.Concatenates [s₁, s₂] t a) :
    concatenate t a [⟨s₁, x₁⟩, ⟨s₂, x₂⟩] h = concat2 t a s₁ s₂ h x₁ x₂ := rfl

end Cert.Gcn
-- ==== Proof.LibPlainDot.lean ====
/-
  A plain matrix product read at an index.

  For the dimension numbers of an [M, K] by [K, N] product with no batch axis (`DotDims.plain`), the contraction index
  is one coordinate `k : Fin K`, the left operand is read at (r, k) and the right one at (k, q). So at the exact
  (extended-real) values both the matrix unit's product into a zero accumulator and the host's `dot_general` are, at
  output index (r, q), the plain sum over `k` of `lhs (r, k) * rhs (k, q)`.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable {φ₁ φ₂ : FTy}

/-- The contraction shape of a plain product has one axis … -/
theorem contr_rank (M K N : Nat) : (DotDims.plain M K N).contr.rank = 1 := rfl
/-- … of extent `K`. -/
theorem contr_size (M K N : Nat) : (DotDims.plain M K N).contr.size ⟨0, by rw [contr_rank]; exact Nat.one_pos⟩ = K := rfl

/-- The contraction index of a plain product as its one coordinate. -/
abbrev kEquiv (M K N : Nat) : (DotDims.plain M K N).contr.Idx ≃ Fin K :=
  contrEquiv1 (DotDims.plain M K N) K (contr_rank M K N) (contr_size M K N)

/-- The left operand's index at output (r, q) and contraction coordinate k is (r, k). -/
theorem lhsIdx_eq {M K N : Nat} (r : Fin M) (q : Fin N) (k : Fin K) :
    (DotDims.plain M K N).lhsIdx (ix2 r q) ((kEquiv M K N).symm k) = ix2 r k := by
  have hk := contrEquiv1_symm_val (DotDims.plain M K N) K (contr_rank M K N) (contr_size M K N) k
  funext a
  refine Fin.ext ?_
  match a with
  | ⟨0, _⟩ => rfl
  | ⟨1, _⟩ => exact ((DotDims.plain M K N).lhsIdx_val_of_single rfl (ix2 r q) _).trans hk

/-- The right operand's index at output (r, q) and contraction coordinate k is (k, q). -/
theorem rhsIdx_eq {M K N : Nat} (r : Fin M) (q : Fin N) (k : Fin K) :
    (DotDims.plain M K N).rhsIdx (ix2 r q) ((kEquiv M K N).symm k) = ix2 k q := by
  have hk := contrEquiv1_symm_val (DotDims.plain M K N) K (contr_rank M K N) (contr_size M K N) k
  funext a
  refine Fin.ext ?_
  match a with
  | ⟨0, _⟩ => exact ((DotDims.plain M K N).rhsIdx_val_of_single rfl (ix2 r q) _).trans hk
  | ⟨1, _⟩ => rfl

/-- The matrix unit's product into a zero accumulator, at (r, q): the sum over k of lhs (r, k) * rhs (k, q). -/
theorem matmul_zero_apply {M K N : Nat} (prec : Option ContractPrecision)
    (lhs : FVec Ideal ⟨2, ![M, K]⟩ φ₁) (rhs : FVec Ideal ⟨2, ![K, N]⟩ φ₂) (r : Fin M) (q : Fin N) :
    FloatOps.matmul (DotDims.plain M K N) prec lhs rhs (constant ⟨2, ![M, N]⟩ .f32 0x00000000#32) (ix2 r q)
      = ∑ k : Fin K, lhs (ix2 r k) * rhs (ix2 k q) := by
  rw [Ideal.matmul_constant_zero_apply, ← Equiv.sum_comp (kEquiv M K N).symm]
  exact Finset.sum_congr rfl fun k _ => by rw [lhsIdx_eq, rhsIdx_eq]

/-- The host's `dot_general` of the same dimension numbers, at (r, q): the same sum. -/
theorem dotGeneral_apply {M K N : Nat} (prec : Option ContractPrecision) (sched : HostSchedule)
    (lhs : FVec Ideal ⟨2, ![M, K]⟩ φ₁) (rhs : FVec Ideal ⟨2, ![K, N]⟩ φ₂) (r : Fin M) (q : Fin N) :
    FloatOps.dotGeneral (DotDims.plain M K N) prec sched lhs rhs (ix2 r q)
      = ∑ k : Fin K, lhs (ix2 r k) * rhs (ix2 k q) := by
  rw [Ideal.dotGeneral_apply, ← Equiv.sum_comp (kEquiv M K N).symm]
  exact Finset.sum_congr rfl fun k _ => by rw [lhsIdx_eq, rhsIdx_eq]

end Idealize.ShloMosaic.PlainDot

end
-- ==== Proof.Spec.lean ====
/-
  The four dense steps of the graph network, each as ONE function of whole arrays, at the exact (extended-real) values.

  * the encoder: a row x of the feature matrix goes to x · W + b, the bias a one-row matrix laid down every row;
  * the weight transform: a row h goes to h · W;
  * the residual step: h + (s + b), the bias again a one-row matrix;
  * the HyperLogLog estimate of a row of registers g: c / Σ_k exp (l · (−g_k)), with c and l two fixed float words.

  Each is written the way a host program spells it (a dot_general, broadcasts, a row sum), and then read at an index as a
  plain formula in the coordinates; a tile of rows computes the same formula on its rows, which is what lets a tiled
  kernel's blocks be recognised as blocks of these functions.
-/
import Idealize.ShloMosaic.Lib.ValueIdx
import Idealize.ShloMosaic.Lib.ValueLayout
import Idealize.ShloMosaic.Lib.KernelVsHost
import Idealize.ShloMosaic.Lib.Pipeline.Value
import Idealize.ShloMosaic.PureOps.Ideal.Laws
import proofs.«143144_j24309514895388_2_alg».proof.Proof.LibPlainDot

noncomputable section

open scoped BigOperators

namespace Cert.Gcn

open Idealize.ShloMosaic Idealize.ShloMosaic.ValueIdx

/-! ## The formulas on one row -/

/-- Entry q of x · W + b for one row x. -/
def rowAffine {K : Nat} (x : Fin K → EReal) (W : (⟨2, ![K, 64]⟩ : Shape).Idx → EReal) (b : (⟨2, ![1, 64]⟩ : Shape).Idx → EReal)
    (q : Fin 64) : EReal :=
  (∑ k : Fin K, x k * W (ix2 k q)) + b (ix2 (0 : Fin 1) q)

/-- Entry q of h · W for one row h. -/
def rowDot {K : Nat} (x : Fin K → EReal) (W : (⟨2, ![K, 64]⟩ : Shape).Idx → EReal) (q : Fin 64) : EReal :=
  ∑ k : Fin K, x k * W (ix2 k q)

/-- The cardinality estimate of one row of registers. -/
def rowCard (g : Fin 64 → BitVec 32) : EReal :=
  Ideal.div (Ideal.ofBits .f32 0x4535975E#32)
    (∑ k : Fin 64, Ideal.exp (Ideal.ofBits .f32 0x3F317218#32 * -(((g k).toInt : ℝ) : EReal)))

/-! ## The encoder -/

/-- x · W + b over M rows, as a host program spells it. -/
def encode (M : Nat) (hb : (⟨2, ![1, 64]⟩ : Shape).BroadcastsInDim ⟨2, ![M, 64]⟩ ![0, 1])
    (x : FVec Ideal ⟨2, ![M, 128]⟩ .f32) (W : FVec Ideal ⟨2, ![128, 64]⟩ .f32) (b : FVec Ideal ⟨2, ![1, 64]⟩ .f32) :
    FVec Ideal ⟨2, ![M, 64]⟩ .f32 :=
  addf (Host.dotGeneral (DotDims.plain M 128 64) none x W) (broadcastInDim ⟨2, ![M, 64]⟩ ![0, 1] hb b)

theorem encode_apply (M : Nat) (hb : (⟨2, ![1, 64]⟩ : Shape).BroadcastsInDim ⟨2, ![M, 64]⟩ ![0, 1])
    (x : FVec Ideal ⟨2, ![M, 128]⟩ .f32) (W : FVec Ideal ⟨2, ![128, 64]⟩ .f32) (b : FVec Ideal ⟨2, ![1, 64]⟩ .f32)
    (r : Fin M) (q : Fin 64) :
    encode M hb x W b (ix2 r q) = rowAffine (fun k => x (ix2 r k)) W b q := by
  unfold encode rowAffine
  rw [addf_apply, broadcastInDim_oneRow_apply]
  exact congrArg (· + b (ix2 (0 : Fin 1) q)) (PlainDot.dotGeneral_apply none .single x W r q)

/-! ## The weight transform -/

/-- h · W over M rows, as a host program spells it. -/
def transform (M : Nat) (h : FVec Ideal ⟨2, ![M, 64]⟩ .f32) (W : FVec Ideal ⟨2, ![64, 64]⟩ .f32) : FVec Ideal ⟨2, ![M, 64]⟩ .f32 :=
  Host.dotGeneral (DotDims.plain M 64 64) none h W

theorem transform_apply (M : Nat) (h : FVec Ideal ⟨2, ![M, 64]⟩ .f32) (W : FVec Ideal ⟨2, ![64, 64]⟩ .f32) (r : Fin M) (q : Fin 64) :
    transform M h W (ix2 r q) = rowDot (fun k => h (ix2 r k)) W q :=
  PlainDot.dotGeneral_apply none .single h W r q

/-! ## The residual step -/

/-- h + (s + b) over M rows, as a host program spells it. -/
def residual (M : Nat) (hb : (⟨2, ![1, 64]⟩ : Shape).BroadcastsInDim ⟨2, ![M, 64]⟩ ![0, 1])
    (h s : FVec Ideal ⟨2, ![M, 64]⟩ .f32) (b : FVec Ideal ⟨2, ![1, 64]⟩ .f32) : FVec Ideal ⟨2, ![M, 64]⟩ .f32 :=
  addf h (addf s (broadcastInDim ⟨2, ![M, 64]⟩ ![0, 1] hb b))

theorem residual_apply (M : Nat) (hb : (⟨2, ![1, 64]⟩ : Shape).BroadcastsInDim ⟨2, ![M, 64]⟩ ![0, 1])
    (h s : FVec Ideal ⟨2, ![M, 64]⟩ .f32) (b : FVec Ideal ⟨2, ![1, 64]⟩ .f32) (r : Fin M) (q : Fin 64) :
    residual M hb h s b (ix2 r q) = h (ix2 r q) + (s (ix2 r q) + b (ix2 (0 : Fin 1) q)) := by
  unfold residual
  rw [addf_apply, addf_apply, broadcastInDim_oneRow_apply]

/-! ## The cardinality estimate -/

/-- The estimate of every row of an M × 64 array of registers, as a host program spells it. -/
def card (M : Nat) (hb0 : (⟨0, ![]⟩ : Shape).BroadcastsInDim ⟨1, ![M]⟩ ![])
    (hb1 : (⟨0, ![]⟩ : Shape).BroadcastsInDim ⟨2, ![M, 64]⟩ ![])
    (hred : (⟨2, ![M, 64]⟩ : Shape).ReducesTo [1] ⟨1, ![M]⟩) (h0 : 0 < (⟨0, ![]⟩ : Shape).numel)
    (g : IVec ⟨2, ![M, 64]⟩ 32) : FVec Ideal ⟨1, ![M]⟩ .f32 :=
  Host.divf (broadcastInDim ⟨1, ![M]⟩ ![] hb0 (constant (F := Ideal) ⟨0, ![]⟩ .f32 0x4535975E#32))
    (Host.reduceAdd
      (Host.exp (mulf (broadcastInDim ⟨2, ![M, 64]⟩ ![] hb1 (constant (F := Ideal) ⟨0, ![]⟩ .f32 0x3F317218#32))
        (Host.negf (sitofp .f32 g))))
      (constant (F := Ideal) ⟨0, ![]⟩ .f32 0x00000000#32) hred h0)

theorem card_apply (M : Nat) (hb0 : (⟨0, ![]⟩ : Shape).BroadcastsInDim ⟨1, ![M]⟩ ![])
    (hb1 : (⟨0, ![]⟩ : Shape).BroadcastsInDim ⟨2, ![M, 64]⟩ ![])
    (hred : (⟨2, ![M, 64]⟩ : Shape).ReducesTo [1] ⟨1, ![M]⟩) (h0 : 0 < (⟨0, ![]⟩ : Shape).numel)
    (hr : (⟨2, ![M, 64]⟩ : Shape).Reduces [1] ⟨1, ![M]⟩)
    (g : IVec ⟨2, ![M, 64]⟩ 32) (r : Fin M) :
    card M hb0 hb1 hred h0 g (ix1 r) = rowCard (fun k => g (ix2 r k)) := by
  unfold card rowCard
  show Ideal.div _ (Ideal.hostReduceAdd hred _ _ (ix1 r)) = _
  rw [Ideal.hostReduceAdd_single hred hr]
  show Ideal.div (Ideal.ofBits .f32 0x4535975E#32) (Ideal.ofBits .f32 0x00000000#32 + _) = _
  rw [Ideal.ofBits_zero_f32, zero_add]
  refine congrArg (Ideal.div _) (Finset.sum_congr rfl fun k _ => ?_)
  have hl : hr.lift (ix1 r) k = ix2 r k := by
    funext a
    match a with
    | ⟨0, _⟩ => rfl
    | ⟨1, _⟩ => rfl
  rw [hl]
  rfl

/-- The estimate copied across 128 lanes: the M × 128 array whose every column is the estimate. -/
def cardWide (M : Nat) (hb0 : (⟨0, ![]⟩ : Shape).BroadcastsInDim ⟨1, ![M]⟩ ![])
    (hb1 : (⟨0, ![]⟩ : Shape).BroadcastsInDim ⟨2, ![M, 64]⟩ ![])
    (hred : (⟨2, ![M, 64]⟩ : Shape).ReducesTo [1] ⟨1, ![M]⟩) (h0 : 0 < (⟨0, ![]⟩ : Shape).numel)
    (g : IVec ⟨2, ![M, 64]⟩ 32) : FVec Ideal ⟨2, ![M, 128]⟩ .f32 :=
  fun i => card M hb0 hb1 hred h0 g (ix1 (⟨(i 0).val, idx2_lt0 i⟩ : Fin M))

theorem cardWide_apply (M : Nat) (hb0 : (⟨0, ![]⟩ : Shape).BroadcastsInDim ⟨1, ![M]⟩ ![])
    (hb1 : (⟨0, ![]⟩ : Shape).BroadcastsInDim ⟨2, ![M, 64]⟩ ![])
    (hred : (⟨2, ![M, 64]⟩ : Shape).ReducesTo [1] ⟨1, ![M]⟩) (h0 : 0 < (⟨0, ![]⟩ : Shape).numel)
    (g : IVec ⟨2, ![M, 64]⟩ 32) (r : Fin M) (l : Fin 128) :
    cardWide M hb0 hb1 hred h0 g (ix2 r l) = card M hb0 hb1 hred h0 g (ix1 r) := rfl

/-- Column 0 of the wide array, flattened, is the estimate itself. -/
theorem cardWide_column (M : Nat) (hb0 : (⟨0, ![]⟩ : Shape).BroadcastsInDim ⟨1, ![M]⟩ ![])
    (hb1 : (⟨0, ![]⟩ : Shape).BroadcastsInDim ⟨2, ![M, 64]⟩ ![])
    (hred : (⟨2, ![M, 64]⟩ : Shape).ReducesTo [1] ⟨1, ![M]⟩) (h0 : 0 < (⟨0, ![]⟩ : Shape).numel)
    (hs : (⟨2, ![M, 128]⟩ : Shape).Slices ![0, 0] ⟨2, ![M, 1]⟩) (hc : (⟨2, ![M, 1]⟩ : Shape).ShapeCasts ⟨1, ![M]⟩)
    (g : IVec ⟨2, ![M, 64]⟩ 32) :
    shapeCast ⟨1, ![M]⟩ (extractStridedSlice ⟨2, ![M, 1]⟩ ![0, 0] (cardWide M hb0 hb1 hred h0 g) hs) hc
      = card M hb0 hb1 hred h0 g := by
  funext j
  obtain ⟨r, rfl⟩ : ∃ r : Fin M, j = ix1 r := ⟨j 0, eq_ix1 j⟩
  refine (shapeCast_apply _ hc (ix1 r) (ix2 r (0 : Fin 1)) ?_).trans ?_
  · rw [Shape.rowMajor_val_two, Shape.rowMajor_val_one]
    show r.val * 1 + 0 = r.val
    omega
  · refine (extractStridedSlice_apply ![0, 0] _ hs (ix2 r (0 : Fin 1)) (ix2 r (0 : Fin 128)) fun a => ?_).trans ?_
    · match a with
      | ⟨0, _⟩ => show r.val = 0 + r.val; omega
      | ⟨1, _⟩ => show (0 : Nat) = 0 + 0; rfl
    · rfl

/-! ## A vector as one row: the two host spellings -/

/-- A vector of 64 entries made a one-row matrix: broadcasting it along axis 1 and re-shaping it are one array. -/
theorem oneRow_eq (v : (⟨1, ![64]⟩ : Shape).Idx → EReal)
    (hb : (⟨1, ![64]⟩ : Shape).BroadcastsInDim ⟨2, ![1, 64]⟩ ![1]) (hc : (⟨1, ![64]⟩ : Shape).ShapeCasts ⟨2, ![1, 64]⟩) :
    broadcastInDim ⟨2, ![1, 64]⟩ ![1] hb v = shapeCast ⟨2, ![1, 64]⟩ v hc := by
  funext j
  obtain ⟨u, q, rfl⟩ : ∃ (u : Fin 1) (q : Fin 64), j = ix2 u q := ⟨j 0, j 1, eq_ix2 j⟩
  rw [shapeCast_a_1a_apply]
  refine broadcastInDim_apply ![1] hb v (ix2 u q) (ix1 q) fun a => ?_
  match a with
  | ⟨0, _⟩ => rfl

/-! ## At 50000 rows -/

theorem rowsFact : (⟨2, ![1, 64]⟩ : Shape).BroadcastsInDim ⟨2, ![50000, 64]⟩ ![0, 1] := by decide
theorem scalarToCol : (⟨0, ![]⟩ : Shape).BroadcastsInDim ⟨1, ![50000]⟩ ![] := by decide
theorem scalarToMat : (⟨0, ![]⟩ : Shape).BroadcastsInDim ⟨2, ![50000, 64]⟩ ![] := by decide
theorem rowSumTo : (⟨2, ![50000, 64]⟩ : Shape).ReducesTo [1] ⟨1, ![50000]⟩ := by decide
theorem rowSum : (⟨2, ![50000, 64]⟩ : Shape).Reduces [1] ⟨1, ![50000]⟩ := by decide
theorem scalarPos : 0 < (⟨0, ![]⟩ : Shape).numel := by decide

/-- The encoder on the 50000 nodes. -/
abbrev encodeN := encode 50000 rowsFact
/-- The weight transform on the 50000 nodes. -/
abbrev transformN := transform 50000
/-- The residual step on the 50000 nodes. -/
abbrev residualN := residual 50000 rowsFact
/-- The cardinality estimates of the 50000 nodes. -/
abbrev cardN := card 50000 scalarToCol scalarToMat rowSumTo scalarPos
/-- The same, copied across 128 lanes. -/
abbrev cardWideN := cardWide 50000 scalarToCol scalarToMat rowSumTo scalarPos

end Cert.Gcn

end
-- ==== Proof.KEncode.lean ====
/-
  The encoder launch: its output array, after the ten grid points have written their blocks back, is the encoder
  function of the three arrays the launch finds.

  Point t reads rows 5000·t … 5000·t + 4999 of the feature matrix, the whole weight matrix and the whole one-row bias,
  and writes the same rows of the output. On those rows the body computes x · W + b with the row's own entries, which is
  the encoder function read at the row; the ten row blocks tile the 50000 rows.
-/
import proofs.«143144_j24309514895388_2_alg».proof.Proof.Gen.KernelIdeal.Frame
import proofs.«143144_j24309514895388_2_alg».proof.Proof.Spec

set_option maxRecDepth 16384

noncomputable section

open scoped BigOperators

namespace Cert.KernelIdeal.EncodeValue

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem off_zero : (![0, 0] : Fin 2 → Nat) = fun _ => 0 := funext fun a => by fin_cases a <;> rfl

/-- The body's value at (p, q): the row formula on row p of the feature block. -/
theorem pay_apply (x0 : Vec Ideal S5000x128 .f32) (x1 : Vec Ideal S128x64 .f32) (x2 : Vec Ideal S1x64 .f32)
    (p : Fin 5000) (q : Fin 64) :
    k0_pay1 (F := Ideal) x0 x1 x2 (ix2 p q) = Gcn.rowAffine (fun k => x0 (ix2 p k)) x1 x2 q := by
  unfold k0_pay1 Gcn.rowAffine
  show addf (F := Ideal) (matmul dot_S5000x128_S128x64_S5000x64_1_0_0_1_n_n none (truncf .bf16 x0 _) (truncf .bf16 x1 _)
      (constant S5000x64 .f32 0x00000000#32)) (broadcastTo S5000x64 (shapeCast S1x64 x2 _) _) (ix2 p q) = _
  rw [addf_apply, broadcastTo_1b_ab_apply, shapeCast_self]
  exact congrArg (· + x2 (ix2 (0 : Fin 1) q)) (PlainDot.matmul_zero_apply none x0 x1 p q)

/-- The printed index maps over the grid: the row-tiled windows sit at block (t, 0), the whole ones at (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p of point t's feature block is row 5000·t + p of the feature matrix. -/
theorem read_rows (c : Dev nD) (t : Fin cfg0.N) (p : Fin 5000) (k : Fin 128) (hp : t.val * 5000 + p.val < 50000) :
    iblk0 V c 0 t (ix2 p k) = V c main_arg0 (ix2 (⟨t.val * 5000 + p.val, hp⟩ : Fin 50000) k) := by
  obtain ⟨e0, e1, -⟩ := idx_facts t
  show V c main_arg0 (((cfg0.win 0).blk t).view.emb (ix2 p k)) = _
  refine congrArg (V c main_arg0) (funext fun a => Fin.ext ?_)
  match a with
  | ⟨0, _⟩ => show win0_0.index t (0 : Fin 2) * 5000 + 1 * p.val = t.val * 5000 + p.val; omega
  | ⟨1, _⟩ => show win0_0.index t (1 : Fin 2) * 128 + 1 * k.val = k.val; omega

/-- Every point's weight block is the whole weight matrix. -/
theorem read_weight (c : Dev nD) (t : Fin cfg0.N) : iblk0 V c 1 t = V c main_arg4 := by
  obtain ⟨-, -, e2, e3, -⟩ := idx_facts t
  funext y
  show V c main_arg4 (((cfg0.win 1).blk t).view.emb y) = V c main_arg4 y
  refine congrArg (V c main_arg4) (funext fun a => Fin.ext ?_)
  match a with
  | ⟨0, _⟩ => show win0_1.index t (0 : Fin 2) * 128 + 1 * (y 0).val = (y 0).val; omega
  | ⟨1, _⟩ => show win0_1.index t (1 : Fin 2) * 64 + 1 * (y 1).val = (y 1).val; omega

/-- Every point's bias block is the whole one-row bias. -/
theorem read_bias (c : Dev nD) (t : Fin cfg0.N) : iblk0 V c 2 t = V c main_v32 := by
  obtain ⟨-, -, -, -, e4, e5, -⟩ := idx_facts t
  funext y
  show V c main_v32 (((cfg0.win 2).blk t).view.emb y) = V c main_v32 y
  refine congrArg (V c main_v32) (funext fun a => Fin.ext ?_)
  match a with
  | ⟨0, _⟩ => show win0_2.index t (0 : Fin 2) * 1 + 1 * (y 0).val = (y 0).val; omega
  | ⟨1, _⟩ => show win0_2.index t (1 : Fin 2) * 64 + 1 * (y 1).val = (y 1).val; omega

/-- What point t writes back is block t of the encoder function of the arrays the launch finds. -/
theorem flushed_eq (c : Dev nD) (t : Fin cfg0.N) :
    (dat0 V c).flushed 3 t
      = ((cfg0.win 3).blk t).view.read (Elt Ideal) (Gcn.encodeN (V c main_arg0) (V c main_arg4) (V c main_v32)) := by
  show (cfg0.win 3).cut (grid0.coords t) ((dat0 V c).after 3 t) = _
  rw [after0_3]
  unfold out0_3
  rw [View.canon_unit_zero off_zero]
  simp only [View.ld_unit_zero (S := S5000x128) off_zero, View.ld_unit_zero (S := S128x64) off_zero,
    View.ld_unit_zero (S := S1x64) off_zero]
  obtain ⟨-, -, -, -, -, -, e6, e7⟩ := idx_facts t
  have ht : t.val < 10 := by have h := t.isLt; have hN : cfg0.N = 10 := N_0; omega
  funext j
  obtain ⟨p, q, rfl⟩ : ∃ (p : Fin 5000) (q : Fin 64), j = ix2 p q := ⟨j 0, j 1, eq_ix2 j⟩
  have hp : t.val * 5000 + p.val < 50000 := by have := p.isLt; omega
  have hemb : ((cfg0.win 3).blk t).view.emb (ix2 p q) = ix2 (⟨t.val * 5000 + p.val, hp⟩ : Fin 50000) q := by
    funext a
    refine Fin.ext ?_
    match a with
    | ⟨0, _⟩ => show win0_3.index t (0 : Fin 2) * 5000 + 1 * p.val = t.val * 5000 + p.val; omega
    | ⟨1, _⟩ => show win0_3.index t (1 : Fin 2) * 64 + 1 * q.val = q.val; omega
  show k0_pay1 (F := Ideal) (iblk0 V c 0 t) (iblk0 V c 1 t) (iblk0 V c 2 t) (ix2 p q)
      = Gcn.encode 50000 Gcn.rowsFact (V c main_arg0) (V c main_arg4) (V c main_v32) (((cfg0.win 3).blk t).view.emb (ix2 p q))
  rw [hemb, Gcn.encode_apply]
  refine (pay_apply (iblk0 V c 0 t) (iblk0 V c 1 t) (iblk0 V c 2 t) p q).trans ?_
  rw [read_weight V c t, read_bias V c t]
  exact congrArg (fun x => Gcn.rowAffine x (V c main_arg4) (V c main_v32) q) (funext fun k => read_rows V c t p k hp)

/-- An index of the output array is in point t's block iff each coordinate is in the block's range on its axis. -/
theorem mem_blk (t : Fin cfg0.N) (i : S50000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_v33).slice (win0_3.rect t)).set ↔ _
  rw [View.set_slice_whole, Rect.mem_set_unit]
  exact Iff.rfl

/-- Every index of the output array is in the block of the point its row falls in. -/
theorem cover (i : S50000x64.Idx) : ∃ t : Fin cfg0.N, (cfg0.win 3).flush t = true ∧ i ∈ ((cfg0.win 3).blk t).view.set := by
  have hi0 : (i 0).val < 50000 := (i 0).isLt
  have hi1 : (i 1).val < 64 := (i 1).isLt
  obtain ⟨t, ht⟩ : ∃ t : Fin cfg0.N, t.val = (i 0).val / 5000 :=
    ⟨⟨(i 0).val / 5000, by rw [show cfg0.N = 10 from N_0]; omega⟩, rfl⟩
  obtain ⟨-, -, -, -, -, -, e6, e7⟩ := idx_facts t
  refine ⟨t, flush0_3 t, ?_⟩
  rw [mem_blk]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 64 ≤ (i 1).val ∧ (i 1).val < win0_3.index t (1 : Fin 2) * 64 + 64
    omega

/-- The output array after the launch: the encoder function of the arrays the launch finds. -/
theorem final (c : Dev nD) :
    (dat0 V c).arrAt 3 cfg0.N = Gcn.encodeN (V c main_arg0) (V c main_arg4) (V c main_v32) :=
  (dat0 V c).arrAt_eq_of_cover 3 _ (fun t _ => flushed_eq V c t) cover

end Cert.KernelIdeal.EncodeValue

end
-- ==== Proof.KCard1.lean ====
/-
  A cardinality launch: its output array, after the ten grid points have written their blocks back, is the row
  estimates of the register array the launch finds, copied across 128 lanes.

  Point t reads rows 5000·t … 5000·t + 4999 of the registers and writes the same rows of the output; on a row the body
  computes c / Σ_k exp ((0 − g_k) · l), which is the row estimate c / Σ_k exp (l · (−g_k)), and lays it along the row.
-/
import proofs.«143144_j24309514895388_2_alg».proof.Proof.Gen.KernelIdeal.Frame
import proofs.«143144_j24309514895388_2_alg».proof.Proof.Spec

set_option maxRecDepth 16384

noncomputable section

open scoped BigOperators

namespace Cert.KernelIdeal.CardValue1

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem off_zero : (![0, 0] : Fin 2 → Nat) = fun _ => 0 := funext fun a => by fin_cases a <;> rfl

/-- The body's value at (p, l): the estimate of row p of the register block, whatever the lane l. -/
theorem pay_apply (x0 : Vec Ideal S5000x64 .i32) (p : Fin 5000) (l : Fin 128) :
    k1_pay1 (F := Ideal) x0 (ix2 p l) = Gcn.rowCard (fun k => x0 (ix2 p k)) := by
  unfold k1_pay1
  refine (broadcastTo_apply _ broadcasts_S5000x1_S5000x128 (ix2 p l) (ix2 p (0 : Fin 1)) ?_).trans ?_
  · intro a
    match a with
    | ⟨0, _⟩ => rfl
    | ⟨1, _⟩ => rfl
  rw [shapeCast_self]
  unfold Gcn.rowCard
  refine congrArg (Ideal.div (Ideal.ofBits .f32 0x4535975E#32)) ?_
  refine (shapeCast_apply _ shapeCasts_S5000_S5000x1 (ix2 p (0 : Fin 1)) (ix1 p) ?_).trans ?_
  · rw [Shape.rowMajor_val_one, Shape.rowMajor_val_two]
    show p.val = p.val * 1 + 0
    omega
  refine (Ideal.multiReduction_add_single _ 0x00000000#32 reduces_S5000x64_S5000 (.inl rfl) rfl (ix1 p)).trans ?_
  refine Finset.sum_congr rfl fun k _ => ?_
  have hl : reduces_S5000x64_S5000.lift (ix1 p) k = ix2 p k := by
    funext a
    match a with
    | ⟨0, _⟩ => rfl
    | ⟨1, _⟩ => rfl
  rw [hl, shapeCast_self]
  show Ideal.exp ((Ideal.ofBits .f32 0x00000000#32 - (((x0 (ix2 p k)).toInt : ℝ) : EReal)) * Ideal.ofBits .f32 0x3F317218#32)
      = Ideal.exp (Ideal.ofBits .f32 0x3F317218#32 * -(((x0 (ix2 p k)).toInt : ℝ) : EReal))
  rw [Ideal.ofBits_zero_f32, zero_sub, mul_comm]

/-- The printed index maps over the grid: both windows sit at block (t, 0). -/
theorem idx_facts : ∀ t : Fin cfg1.N, win1_1.index t (0 : Fin 2) = t.val ∧ win1_1.index t (1 : Fin 2) = 0
    ∧ win1_0.index t (0 : Fin 2) = t.val ∧ win1_0.index t (1 : Fin 2) = 0 :=
  (by decide +kernel : ∀ t : Fin grid1.N, _)

/-- Row p of point t's register block is row 5000·t + p of the register array. -/
theorem read_rows (c : Dev nD) (t : Fin cfg1.N) (p : Fin 5000) (k : Fin 64) (hp : t.val * 5000 + p.val < 50000) :
    iblk1 V c 0 t (ix2 p k) = V c main_v43 (ix2 (⟨t.val * 5000 + p.val, hp⟩ : Fin 50000) k) := by
  obtain ⟨-, -, e0, e1⟩ := idx_facts t
  show V c main_v43 (((cfg1.win 0).blk t).view.emb (ix2 p k)) = _
  refine congrArg (V c main_v43) (funext fun a => Fin.ext ?_)
  match a with
  | ⟨0, _⟩ => show win1_0.index t (0 : Fin 2) * 5000 + 1 * p.val = t.val * 5000 + p.val; omega
  | ⟨1, _⟩ => show win1_0.index t (1 : Fin 2) * 64 + 1 * k.val = k.val; omega

/-- What point t writes back is block t of the wide estimate array of the registers the launch finds. -/
theorem flushed_eq (c : Dev nD) (t : Fin cfg1.N) :
    (dat1 V c).flushed 1 t = ((cfg1.win 1).blk t).view.read (Elt Ideal) (Gcn.cardWideN (V c main_v43)) := by
  show (cfg1.win 1).cut (grid1.coords t) ((dat1 V c).after 1 t) = _
  rw [after1_1]
  unfold out1_1
  rw [View.canon_unit_zero off_zero]
  simp only [View.ld_unit_zero (S := S5000x64) off_zero]
  obtain ⟨e6, e7, -⟩ := idx_facts t
  have ht : t.val < 10 := by have h := t.isLt; have hN : cfg1.N = 10 := N_1; omega
  funext j
  obtain ⟨p, l, rfl⟩ : ∃ (p : Fin 5000) (l : Fin 128), j = ix2 p l := ⟨j 0, j 1, eq_ix2 j⟩
  have hp : t.val * 5000 + p.val < 50000 := by have := p.isLt; omega
  have hemb : ((cfg1.win 1).blk t).view.emb (ix2 p l) = ix2 (⟨t.val * 5000 + p.val, hp⟩ : Fin 50000) l := by
    funext a
    refine Fin.ext ?_
    match a with
    | ⟨0, _⟩ => show win1_1.index t (0 : Fin 2) * 5000 + 1 * p.val = t.val * 5000 + p.val; omega
    | ⟨1, _⟩ => show win1_1.index t (1 : Fin 2) * 128 + 1 * l.val = l.val; omega
  show k1_pay1 (F := Ideal) (iblk1 V c 0 t) (ix2 p l)
      = Gcn.cardWide 50000 Gcn.scalarToCol Gcn.scalarToMat Gcn.rowSumTo Gcn.scalarPos (V c main_v43) (((cfg1.win 1).blk t).view.emb (ix2 p l))
  rw [hemb, Gcn.cardWide_apply, Gcn.card_apply _ _ _ _ _ Gcn.rowSum]
  refine (pay_apply (iblk1 V c 0 t) p l).trans ?_
  exact congrArg Gcn.rowCard (funext fun k => read_rows V c t p k hp)

/-- An index of the output array is in point t's block iff each coordinate is in the block's range on its axis. -/
theorem mem_blk (t : Fin cfg1.N) (i : S50000x128.Idx) :
    i ∈ ((cfg1.win 1).blk t).view.set ↔ ∀ a : Fin 2, win1_1.index t a * S5000x128.size a ≤ (i a).val
      ∧ (i a).val < win1_1.index t a * S5000x128.size a + S5000x128.size a := by
  show i ∈ ((View.whole main_v54).slice (win1_1.rect t)).set ↔ _
  rw [View.set_slice_whole, Rect.mem_set_unit]
  exact Iff.rfl

/-- Every index of the output array is in the block of the point its row falls in. -/
theorem cover (i : S50000x128.Idx) :
    ∃ t : Fin cfg1.N, (cfg1.win 1).flush t = true ∧ i ∈ ((cfg1.win 1).blk t).view.set := by
  have hi0 : (i 0).val < 50000 := (i 0).isLt
  have hi1 : (i 1).val < 128 := (i 1).isLt
  obtain ⟨t, ht⟩ : ∃ t : Fin cfg1.N, t.val = (i 0).val / 5000 :=
    ⟨⟨(i 0).val / 5000, by rw [show cfg1.N = 10 from N_1]; omega⟩, rfl⟩
  obtain ⟨eo0, eo1, -⟩ := idx_facts t
  refine ⟨t, flush1_1 t, ?_⟩
  rw [mem_blk]
  intro a
  match a with
  | ⟨0, _⟩ =>
    show win1_1.index t (0 : Fin 2) * 5000 ≤ (i 0).val ∧ (i 0).val < win1_1.index t (0 : Fin 2) * 5000 + 5000
    omega
  | ⟨1, _⟩ =>
    show win1_1.index t (1 : Fin 2) * 128 ≤ (i 1).val ∧ (i 1).val < win1_1.index t (1 : Fin 2) * 128 + 128
    omega

/-- The output array after the launch. -/
theorem final (c : Dev nD) :
    (dat1 V c).arrAt 1 cfg1.N = Gcn.cardWideN (V c main_v43) :=
  (dat1 V c).arrAt_eq_of_cover 1 _ (fun t _ => flushed_eq V c t) cover

end Cert.KernelIdeal.CardValue1

end
-- ==== Proof.KCard4.lean ====
/-
  A cardinality launch: its output array, after the ten grid points have written their blocks back, is the row
  estimates of the register array the launch finds, copied across 128 lanes.

  Point t reads rows 5000·t … 5000·t + 4999 of the registers and writes the same rows of the output; on a row the body
  computes c / Σ_k exp ((0 − g_k) · l), which is the row estimate c / Σ_k exp (l · (−g_k)), and lays it along the row.
-/
import proofs.«143144_j24309514895388_2_alg».proof.Proof.Gen.KernelIdeal.Frame
import proofs.«143144_j24309514895388_2_alg».proof.Proof.Spec

set_option maxRecDepth 16384

noncomputable section

open scoped BigOperators

namespace Cert.KernelIdeal.CardValue4

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem off_zero : (![0, 0] : Fin 2 → Nat) = fun _ => 0 := funext fun a => by fin_cases a <;> rfl

/-- The body's value at (p, l): the estimate of row p of the register block, whatever the lane l. -/
theorem pay_apply (x0 : Vec Ideal S5000x64 .i32) (p : Fin 5000) (l : Fin 128) :
    k4_pay1 (F := Ideal) x0 (ix2 p l) = Gcn.rowCard (fun k => x0 (ix2 p k)) := by
  unfold k4_pay1
  refine (broadcastTo_apply _ broadcasts_S5000x1_S5000x128 (ix2 p l) (ix2 p (0 : Fin 1)) ?_).trans ?_
  · intro a
    match a with
    | ⟨0, _⟩ => rfl
    | ⟨1, _⟩ => rfl
  rw [shapeCast_self]
  unfold Gcn.rowCard
  refine congrArg (Ideal.div (Ideal.ofBits .f32 0x4535975E#32)) ?_
  refine (shapeCast_apply _ shapeCasts_S5000_S5000x1 (ix2 p (0 : Fin 1)) (ix1 p) ?_).trans ?_
  · rw [Shape.rowMajor_val_one, Shape.rowMajor_val_two]
    show p.val = p.val * 1 + 0
    omega
  refine (Ideal.multiReduction_add_single _ 0x00000000#32 reduces_S5000x64_S5000 (.inl rfl) rfl (ix1 p)).trans ?_
  refine Finset.sum_congr rfl fun k _ => ?_
  have hl : reduces_S5000x64_S5000.lift (ix1 p) k = ix2 p k := by
    funext a
    match a with
    | ⟨0, _⟩ => rfl
    | ⟨1, _⟩ => rfl
  rw [hl, shapeCast_self]
  show Ideal.exp ((Ideal.ofBits .f32 0x00000000#32 - (((x0 (ix2 p k)).toInt : ℝ) : EReal)) * Ideal.ofBits .f32 0x3F317218#32)
      = Ideal.exp (Ideal.ofBits .f32 0x3F317218#32 * -(((x0 (ix2 p k)).toInt : ℝ) : EReal))
  rw [Ideal.ofBits_zero_f32, zero_sub, mul_comm]

/-- The printed index maps over the grid: both windows sit at block (t, 0). -/
theorem idx_facts : ∀ t : Fin cfg4.N, win4_1.index t (0 : Fin 2) = t.val ∧ win4_1.index t (1 : Fin 2) = 0
    ∧ win4_0.index t (0 : Fin 2) = t.val ∧ win4_0.index t (1 : Fin 2) = 0 :=
  (by decide +kernel : ∀ t : Fin grid4.N, _)

/-- Row p of point t's register block is row 5000·t + p of the register array. -/
theorem read_rows (c : Dev nD) (t : Fin cfg4.N) (p : Fin 5000) (k : Fin 64) (hp : t.val * 5000 + p.val < 50000) :
    iblk4 V c 0 t (ix2 p k) = V c main_v86 (ix2 (⟨t.val * 5000 + p.val, hp⟩ : Fin 50000) k) := by
  obtain ⟨-, -, e0, e1⟩ := idx_facts t
  show V c main_v86 (((cfg4.win 0).blk t).view.emb (ix2 p k)) = _
  refine congrArg (V c main_v86) (funext fun a => Fin.ext ?_)
  match a with
  | ⟨0, _⟩ => show win4_0.index t (0 : Fin 2) * 5000 + 1 * p.val = t.val * 5000 + p.val; omega
  | ⟨1, _⟩ => show win4_0.index t (1 : Fin 2) * 64 + 1 * k.val = k.val; omega

/-- What point t writes back is block t of the wide estimate array of the registers the launch finds. -/
theorem flushed_eq (c : Dev nD) (t : Fin cfg4.N) :
    (dat4 V c).flushed 1 t = ((cfg4.win 1).blk t).view.read (Elt Ideal) (Gcn.cardWideN (V c main_v86)) := by
  show (cfg4.win 1).cut (grid4.coords t) ((dat4 V c).after 1 t) = _
  rw [after4_1]
  unfold out4_1
  rw [View.canon_unit_zero off_zero]
  simp only [View.ld_unit_zero (S := S5000x64) off_zero]
  obtain ⟨e6, e7, -⟩ := idx_facts t
  have ht : t.val < 10 := by have h := t.isLt; have hN : cfg4.N = 10 := N_4; omega
  funext j
  obtain ⟨p, l, rfl⟩ : ∃ (p : Fin 5000) (l : Fin 128), j = ix2 p l := ⟨j 0, j 1, eq_ix2 j⟩
  have hp : t.val * 5000 + p.val < 50000 := by have := p.isLt; omega
  have hemb : ((cfg4.win 1).blk t).view.emb (ix2 p l) = ix2 (⟨t.val * 5000 + p.val, hp⟩ : Fin 50000) l := by
    funext a
    refine Fin.ext ?_
    match a with
    | ⟨0, _⟩ => show win4_1.index t (0 : Fin 2) * 5000 + 1 * p.val = t.val * 5000 + p.val; omega
    | ⟨1, _⟩ => show win4_1.index t (1 : Fin 2) * 128 + 1 * l.val = l.val; omega
  show k4_pay1 (F := Ideal) (iblk4 V c 0 t) (ix2 p l)
      = Gcn.cardWide 50000 Gcn.scalarToCol Gcn.scalarToMat Gcn.rowSumTo Gcn.scalarPos (V c main_v86) (((cfg4.win 1).blk t).view.emb (ix2 p l))
  rw [hemb, Gcn.cardWide_apply, Gcn.card_apply _ _ _ _ _ Gcn.rowSum]
  refine (pay_apply (iblk4 V c 0 t) p l).trans ?_
  exact congrArg Gcn.rowCard (funext fun k => read_rows V c t p k hp)

/-- An index of the output array is in point t's block iff each coordinate is in the block's range on its axis. -/
theorem mem_blk (t : Fin cfg4.N) (i : S50000x128.Idx) :
    i ∈ ((cfg4.win 1).blk t).view.set ↔ ∀ a : Fin 2, win4_1.index t a * S5000x128.size a ≤ (i a).val
      ∧ (i a).val < win4_1.index t a * S5000x128.size a + S5000x128.size a := by
  show i ∈ ((View.whole main_v97).slice (win4_1.rect t)).set ↔ _
  rw [View.set_slice_whole, Rect.mem_set_unit]
  exact Iff.rfl

/-- Every index of the output array is in the block of the point its row falls in. -/
theorem cover (i : S50000x128.Idx) :
    ∃ t : Fin cfg4.N, (cfg4.win 1).flush t = true ∧ i ∈ ((cfg4.win 1).blk t).view.set := by
  have hi0 : (i 0).val < 50000 := (i 0).isLt
  have hi1 : (i 1).val < 128 := (i 1).isLt
  obtain ⟨t, ht⟩ : ∃ t : Fin cfg4.N, t.val = (i 0).val / 5000 :=
    ⟨⟨(i 0).val / 5000, by rw [show cfg4.N = 10 from N_4]; omega⟩, rfl⟩
  obtain ⟨eo0, eo1, -⟩ := idx_facts t
  refine ⟨t, flush4_1 t, ?_⟩
  rw [mem_blk]
  intro a
  match a with
  | ⟨0, _⟩ =>
    show win4_1.index t (0 : Fin 2) * 5000 ≤ (i 0).val ∧ (i 0).val < win4_1.index t (0 : Fin 2) * 5000 + 5000
    omega
  | ⟨1, _⟩ =>
    show win4_1.index t (1 : Fin 2) * 128 ≤ (i 1).val ∧ (i 1).val < win4_1.index t (1 : Fin 2) * 128 + 128
    omega

/-- The output array after the launch. -/
theorem final (c : Dev nD) :
    (dat4 V c).arrAt 1 cfg4.N = Gcn.cardWideN (V c main_v86) :=
  (dat4 V c).arrAt_eq_of_cover 1 _ (fun t _ => flushed_eq V c t) cover

end Cert.KernelIdeal.CardValue4

end
-- ==== Proof.KTransform2.lean ====
/-
  A weight-transform launch: its output array, after the ten grid points have written their blocks back, is h · W of
  the two arrays the launch finds.

  Point t reads rows 5000·t … 5000·t + 4999 of h and the whole 64 × 64 weight and writes the same rows of the output;
  on a row the body computes the row times the weight.
-/
import proofs.«143144_j24309514895388_2_alg».proof.Proof.Gen.KernelIdeal.Frame
import proofs.«143144_j24309514895388_2_alg».proof.Proof.Spec

set_option maxRecDepth 16384

noncomputable section

open scoped BigOperators

namespace Cert.KernelIdeal.TransformValue2

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem off_zero : (![0, 0] : Fin 2 → Nat) = fun _ => 0 := funext fun a => by fin_cases a <;> rfl

/-- The body's value at (p, q): row p of the block times column q of the weight. -/
theorem pay_apply (x0 : Vec Ideal S5000x64 .f32) (x1 : Vec Ideal S64x64 .f32) (p : Fin 5000) (q : Fin 64) :
    k2_pay1 (F := Ideal) x0 x1 (ix2 p q) = Gcn.rowDot (fun k => x0 (ix2 p k)) x1 q := by
  unfold k2_pay1 Gcn.rowDot
  show matmul (F := Ideal) dot_S5000x64_S64x64_S5000x64_1_0_0_1_n_n none (truncf .bf16 (shapeCast S5000x64 x0 _) _)
      (truncf .bf16 (shapeCast S64x64 x1 _) _) (constant S5000x64 .f32 0x00000000#32) (ix2 p q) = _
  rw [shapeCast_self, shapeCast_self]
  exact PlainDot.matmul_zero_apply none x0 x1 p q

/-- The printed index maps over the grid: the row-tiled windows sit at block (t, 0), the weight at (0, 0). -/
theorem idx_facts : ∀ t : Fin cfg2.N, win2_2.index t (0 : Fin 2) = t.val ∧ win2_2.index t (1 : Fin 2) = 0
    ∧ win2_0.index t (0 : Fin 2) = t.val ∧ win2_0.index t (1 : Fin 2) = 0
    ∧ win2_1.index t (0 : Fin 2) = 0 ∧ win2_1.index t (1 : Fin 2) = 0 :=
  (by decide +kernel : ∀ t : Fin grid2.N, _)

/-- Row p of point t's block of h is row 5000·t + p of h. -/
theorem read_rows (c : Dev nD) (t : Fin cfg2.N) (p : Fin 5000) (k : Fin 64) (hp : t.val * 5000 + p.val < 50000) :
    iblk2 V c 0 t (ix2 p k) = V c main_v33 (ix2 (⟨t.val * 5000 + p.val, hp⟩ : Fin 50000) k) := by
  obtain ⟨-, -, e0, e1, -⟩ := idx_facts t
  show V c main_v33 (((cfg2.win 0).blk t).view.emb (ix2 p k)) = _
  refine congrArg (V c main_v33) (funext fun a => Fin.ext ?_)
  match a with
  | ⟨0, _⟩ => show win2_0.index t (0 : Fin 2) * 5000 + 1 * p.val = t.val * 5000 + p.val; omega
  | ⟨1, _⟩ => show win2_0.index t (1 : Fin 2) * 64 + 1 * k.val = k.val; omega

/-- Every point's weight block is the whole weight matrix. -/
theorem read_weight (c : Dev nD) (t : Fin cfg2.N) : iblk2 V c 1 t = V c main_v58 := by
  obtain ⟨-, -, -, -, e2, e3⟩ := idx_facts t
  funext y
  show V c main_v58 (((cfg2.win 1).blk t).view.emb y) = V c main_v58 y
  refine congrArg (V c main_v58) (funext fun a => Fin.ext ?_)
  match a with
  | ⟨0, _⟩ => show win2_1.index t (0 : Fin 2) * 64 + 1 * (y 0).val = (y 0).val; omega
  | ⟨1, _⟩ => show win2_1.index t (1 : Fin 2) * 64 + 1 * (y 1).val = (y 1).val; omega

/-- What point t writes back is block t of h · W of the arrays the launch finds. -/
theorem flushed_eq (c : Dev nD) (t : Fin cfg2.N) :
    (dat2 V c).flushed 2 t = ((cfg2.win 2).blk t).view.read (Elt Ideal) (Gcn.transformN (V c main_v33) (V c main_v58)) := by
  show (cfg2.win 2).cut (grid2.coords t) ((dat2 V c).after 2 t) = _
  rw [after2_2]
  unfold out2_2
  rw [View.canon_unit_zero off_zero]
  simp only [View.ld_unit_zero (S := S5000x64) off_zero, View.ld_unit_zero (S := S64x64) off_zero]
  obtain ⟨e6, e7, -⟩ := idx_facts t
  have ht : t.val < 10 := by have h := t.isLt; have hN : cfg2.N = 10 := N_2; omega
  funext j
  obtain ⟨p, q, rfl⟩ : ∃ (p : Fin 5000) (q : Fin 64), j = ix2 p q := ⟨j 0, j 1, eq_ix2 j⟩
  have hp : t.val * 5000 + p.val < 50000 := by have := p.isLt; omega
  have hemb : ((cfg2.win 2).blk t).view.emb (ix2 p q) = ix2 (⟨t.val * 5000 + p.val, hp⟩ : Fin 50000) q := by
    funext a
    refine Fin.ext ?_
    match a with
    | ⟨0, _⟩ => show win2_2.index t (0 : Fin 2) * 5000 + 1 * p.val = t.val * 5000 + p.val; omega
    | ⟨1, _⟩ => show win2_2.index t (1 : Fin 2) * 64 + 1 * q.val = q.val; omega
  show k2_pay1 (F := Ideal) (iblk2 V c 0 t) (iblk2 V c 1 t) (ix2 p q)
      = Gcn.transform 50000 (V c main_v33) (V c main_v58) (((cfg2.win 2).blk t).view.emb (ix2 p q))
  rw [hemb, Gcn.transform_apply]
  refine (pay_apply (iblk2 V c 0 t) (iblk2 V c 1 t) p q).trans ?_
  rw [read_weight V c t]
  exact congrArg (fun x => Gcn.rowDot x (V c main_v58) q) (funext fun k => read_rows V c t p k hp)

/-- An index of the output array is in point t's block iff each coordinate is in the block's range on its axis. -/
theorem mem_blk (t : Fin cfg2.N) (i : S50000x64.Idx) :
    i ∈ ((cfg2.win 2).blk t).view.set ↔ ∀ a : Fin 2, win2_2.index t a * S5000x64.size a ≤ (i a).val
      ∧ (i a).val < win2_2.index t a * S5000x64.size a + S5000x64.size a := by
  show i ∈ ((View.whole main_v59).slice (win2_2.rect t)).set ↔ _
  rw [View.set_slice_whole, Rect.mem_set_unit]
  exact Iff.rfl

/-- Every index of the output array is in the block of the point its row falls in. -/
theorem cover (i : S50000x64.Idx) :
    ∃ t : Fin cfg2.N, (cfg2.win 2).flush t = true ∧ i ∈ ((cfg2.win 2).blk t).view.set := by
  have hi0 : (i 0).val < 50000 := (i 0).isLt
  have hi1 : (i 1).val < 64 := (i 1).isLt
  obtain ⟨t, ht⟩ : ∃ t : Fin cfg2.N, t.val = (i 0).val / 5000 :=
    ⟨⟨(i 0).val / 5000, by rw [show cfg2.N = 10 from N_2]; omega⟩, rfl⟩
  obtain ⟨eo0, eo1, -⟩ := idx_facts t
  refine ⟨t, flush2_2 t, ?_⟩
  rw [mem_blk]
  intro a
  match a with
  | ⟨0, _⟩ =>
    show win2_2.index t (0 : Fin 2) * 5000 ≤ (i 0).val ∧ (i 0).val < win2_2.index t (0 : Fin 2) * 5000 + 5000
    omega
  | ⟨1, _⟩ =>
    show win2_2.index t (1 : Fin 2) * 64 ≤ (i 1).val ∧ (i 1).val < win2_2.index t (1 : Fin 2) * 64 + 64
    omega

/-- The output array after the launch. -/
theorem final (c : Dev nD) :
    (dat2 V c).arrAt 2 cfg2.N = Gcn.transformN (V c main_v33) (V c main_v58) :=
  (dat2 V c).arrAt_eq_of_cover 2 _ (fun t _ => flushed_eq V c t) cover

end Cert.KernelIdeal.TransformValue2

end
-- ==== Proof.KTransform5.lean ====
/-
  A weight-transform launch: its output array, after the ten grid points have written their blocks back, is h · W of
  the two arrays the launch finds.

  Point t reads rows 5000·t … 5000·t + 4999 of h and the whole 64 × 64 weight and writes the same rows of the output;
  on a row the body computes the row times the weight.
-/
import proofs.«143144_j24309514895388_2_alg».proof.Proof.Gen.KernelIdeal.Frame
import proofs.«143144_j24309514895388_2_alg».proof.Proof.Spec

set_option maxRecDepth 16384

noncomputable section

open scoped BigOperators

namespace Cert.KernelIdeal.TransformValue5

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem off_zero : (![0, 0] : Fin 2 → Nat) = fun _ => 0 := funext fun a => by fin_cases a <;> rfl

/-- The body's value at (p, q): row p of the block times column q of the weight. -/
theorem pay_apply (x0 : Vec Ideal S5000x64 .f32) (x1 : Vec Ideal S64x64 .f32) (p : Fin 5000) (q : Fin 64) :
    k5_pay1 (F := Ideal) x0 x1 (ix2 p q) = Gcn.rowDot (fun k => x0 (ix2 p k)) x1 q := by
  unfold k5_pay1 Gcn.rowDot
  show matmul (F := Ideal) dot_S5000x64_S64x64_S5000x64_1_0_0_1_n_n none (truncf .bf16 (shapeCast S5000x64 x0 _) _)
      (truncf .bf16 (shapeCast S64x64 x1 _) _) (constant S5000x64 .f32 0x00000000#32) (ix2 p q) = _
  rw [shapeCast_self, shapeCast_self]
  exact PlainDot.matmul_zero_apply none x0 x1 p q

/-- The printed index maps over the grid: the row-tiled windows sit at block (t, 0), the weight at (0, 0). -/
theorem idx_facts : ∀ t : Fin cfg5.N, win5_2.index t (0 : Fin 2) = t.val ∧ win5_2.index t (1 : Fin 2) = 0
    ∧ win5_0.index t (0 : Fin 2) = t.val ∧ win5_0.index t (1 : Fin 2) = 0
    ∧ win5_1.index t (0 : Fin 2) = 0 ∧ win5_1.index t (1 : Fin 2) = 0 :=
  (by decide +kernel : ∀ t : Fin grid5.N, _)

/-- Row p of point t's block of h is row 5000·t + p of h. -/
theorem read_rows (c : Dev nD) (t : Fin cfg5.N) (p : Fin 5000) (k : Fin 64) (hp : t.val * 5000 + p.val < 50000) :
    iblk5 V c 0 t (ix2 p k) = V c main_v76 (ix2 (⟨t.val * 5000 + p.val, hp⟩ : Fin 50000) k) := by
  obtain ⟨-, -, e0, e1, -⟩ := idx_facts t
  show V c main_v76 (((cfg5.win 0).blk t).view.emb (ix2 p k)) = _
  refine congrArg (V c main_v76) (funext fun a => Fin.ext ?_)
  match a with
  | ⟨0, _⟩ => show win5_0.index t (0 : Fin 2) * 5000 + 1 * p.val = t.val * 5000 + p.val; omega
  | ⟨1, _⟩ => show win5_0.index t (1 : Fin 2) * 64 + 1 * k.val = k.val; omega

/-- Every point's weight block is the whole weight matrix. -/
theorem read_weight (c : Dev nD) (t : Fin cfg5.N) : iblk5 V c 1 t = V c main_v101 := by
  obtain ⟨-, -, -, -, e2, e3⟩ := idx_facts t
  funext y
  show V c main_v101 (((cfg5.win 1).blk t).view.emb y) = V c main_v101 y
  refine congrArg (V c main_v101) (funext fun a => Fin.ext ?_)
  match a with
  | ⟨0, _⟩ => show win5_1.index t (0 : Fin 2) * 64 + 1 * (y 0).val = (y 0).val; omega
  | ⟨1, _⟩ => show win5_1.index t (1 : Fin 2) * 64 + 1 * (y 1).val = (y 1).val; omega

/-- What point t writes back is block t of h · W of the arrays the launch finds. -/
theorem flushed_eq (c : Dev nD) (t : Fin cfg5.N) :
    (dat5 V c).flushed 2 t = ((cfg5.win 2).blk t).view.read (Elt Ideal) (Gcn.transformN (V c main_v76) (V c main_v101)) := by
  show (cfg5.win 2).cut (grid5.coords t) ((dat5 V c).after 2 t) = _
  rw [after5_2]
  unfold out5_2
  rw [View.canon_unit_zero off_zero]
  simp only [View.ld_unit_zero (S := S5000x64) off_zero, View.ld_unit_zero (S := S64x64) off_zero]
  obtain ⟨e6, e7, -⟩ := idx_facts t
  have ht : t.val < 10 := by have h := t.isLt; have hN : cfg5.N = 10 := N_5; omega
  funext j
  obtain ⟨p, q, rfl⟩ : ∃ (p : Fin 5000) (q : Fin 64), j = ix2 p q := ⟨j 0, j 1, eq_ix2 j⟩
  have hp : t.val * 5000 + p.val < 50000 := by have := p.isLt; omega
  have hemb : ((cfg5.win 2).blk t).view.emb (ix2 p q) = ix2 (⟨t.val * 5000 + p.val, hp⟩ : Fin 50000) q := by
    funext a
    refine Fin.ext ?_
    match a with
    | ⟨0, _⟩ => show win5_2.index t (0 : Fin 2) * 5000 + 1 * p.val = t.val * 5000 + p.val; omega
    | ⟨1, _⟩ => show win5_2.index t (1 : Fin 2) * 64 + 1 * q.val = q.val; omega
  show k5_pay1 (F := Ideal) (iblk5 V c 0 t) (iblk5 V c 1 t) (ix2 p q)
      = Gcn.transform 50000 (V c main_v76) (V c main_v101) (((cfg5.win 2).blk t).view.emb (ix2 p q))
  rw [hemb, Gcn.transform_apply]
  refine (pay_apply (iblk5 V c 0 t) (iblk5 V c 1 t) p q).trans ?_
  rw [read_weight V c t]
  exact congrArg (fun x => Gcn.rowDot x (V c main_v101) q) (funext fun k => read_rows V c t p k hp)

/-- An index of the output array is in point t's block iff each coordinate is in the block's range on its axis. -/
theorem mem_blk (t : Fin cfg5.N) (i : S50000x64.Idx) :
    i ∈ ((cfg5.win 2).blk t).view.set ↔ ∀ a : Fin 2, win5_2.index t a * S5000x64.size a ≤ (i a).val
      ∧ (i a).val < win5_2.index t a * S5000x64.size a + S5000x64.size a := by
  show i ∈ ((View.whole main_v102).slice (win5_2.rect t)).set ↔ _
  rw [View.set_slice_whole, Rect.mem_set_unit]
  exact Iff.rfl

/-- Every index of the output array is in the block of the point its row falls in. -/
theorem cover (i : S50000x64.Idx) :
    ∃ t : Fin cfg5.N, (cfg5.win 2).flush t = true ∧ i ∈ ((cfg5.win 2).blk t).view.set := by
  have hi0 : (i 0).val < 50000 := (i 0).isLt
  have hi1 : (i 1).val < 64 := (i 1).isLt
  obtain ⟨t, ht⟩ : ∃ t : Fin cfg5.N, t.val = (i 0).val / 5000 :=
    ⟨⟨(i 0).val / 5000, by rw [show cfg5.N = 10 from N_5]; omega⟩, rfl⟩
  obtain ⟨eo0, eo1, -⟩ := idx_facts t
  refine ⟨t, flush5_2 t, ?_⟩
  rw [mem_blk]
  intro a
  match a with
  | ⟨0, _⟩ =>
    show win5_2.index t (0 : Fin 2) * 5000 ≤ (i 0).val ∧ (i 0).val < win5_2.index t (0 : Fin 2) * 5000 + 5000
    omega
  | ⟨1, _⟩ =>
    show win5_2.index t (1 : Fin 2) * 64 ≤ (i 1).val ∧ (i 1).val < win5_2.index t (1 : Fin 2) * 64 + 64
    omega

/-- The output array after the launch. -/
theorem final (c : Dev nD) :
    (dat5 V c).arrAt 2 cfg5.N = Gcn.transformN (V c main_v76) (V c main_v101) :=
  (dat5 V c).arrAt_eq_of_cover 2 _ (fun t _ => flushed_eq V c t) cover

end Cert.KernelIdeal.TransformValue5

end
-- ==== Proof.KResidual3.lean ====
/-
  A residual launch: its output array, after the ten grid points have written their blocks back, is h + (s + b) of the
  three arrays the launch finds, b a one-row bias laid down every row.

  Point t reads rows 5000·t … 5000·t + 4999 of h and of s and the whole bias and writes the same rows of the output; at
  an entry the body computes (h + s) + b, which is h + (s + b): addition of extended reals is associative.
-/
import proofs.«143144_j24309514895388_2_alg».proof.Proof.Gen.KernelIdeal.Frame
import proofs.«143144_j24309514895388_2_alg».proof.Proof.Spec

set_option maxRecDepth 16384

noncomputable section

open scoped BigOperators

namespace Cert.KernelIdeal.ResidualValue3

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem off_zero : (![0, 0] : Fin 2 → Nat) = fun _ => 0 := funext fun a => by fin_cases a <;> rfl

/-- The body's value at (p, q). -/
theorem pay_apply (x0 x1 : Vec Ideal S5000x64 .f32) (x2 : Vec Ideal S1x64 .f32) (p : Fin 5000) (q : Fin 64) :
    k3_pay1 (F := Ideal) x0 x1 x2 (ix2 p q) = x0 (ix2 p q) + (x1 (ix2 p q) + x2 (ix2 (0 : Fin 1) q)) := by
  unfold k3_pay1
  show addf (F := Ideal) (addf (shapeCast S5000x64 x0 _) (shapeCast S5000x64 x1 _)) (broadcastTo S5000x64 (shapeCast S1x64 x2 _) _)
      (ix2 p q) = _
  rw [addf_apply, addf_apply, broadcastTo_1b_ab_apply, shapeCast_self, shapeCast_self, shapeCast_self, add_assoc]

/-- The printed index maps over the grid: the row-tiled windows sit at block (t, 0), the bias at (0, 0). -/
theorem idx_facts : ∀ t : Fin cfg3.N, win3_3.index t (0 : Fin 2) = t.val ∧ win3_3.index t (1 : Fin 2) = 0
    ∧ win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0 :=
  (by decide +kernel : ∀ t : Fin grid3.N, _)

/-- Entry (p, q) of point t's block of h is entry (5000·t + p, q) of h. -/
theorem read_h (c : Dev nD) (t : Fin cfg3.N) (p : Fin 5000) (q : Fin 64) (hp : t.val * 5000 + p.val < 50000) :
    iblk3 V c 0 t (ix2 p q) = V c main_v33 (ix2 (⟨t.val * 5000 + p.val, hp⟩ : Fin 50000) q) := by
  obtain ⟨-, -, e0, e1, -⟩ := idx_facts t
  show V c main_v33 (((cfg3.win 0).blk t).view.emb (ix2 p q)) = _
  refine congrArg (V c main_v33) (funext fun a => Fin.ext ?_)
  match a with
  | ⟨0, _⟩ => show win3_0.index t (0 : Fin 2) * 5000 + 1 * p.val = t.val * 5000 + p.val; omega
  | ⟨1, _⟩ => show win3_0.index t (1 : Fin 2) * 64 + 1 * q.val = q.val; omega

/-- Entry (p, q) of point t's block of s is entry (5000·t + p, q) of s. -/
theorem read_s (c : Dev nD) (t : Fin cfg3.N) (p : Fin 5000) (q : Fin 64) (hp : t.val * 5000 + p.val < 50000) :
    iblk3 V c 1 t (ix2 p q) = V c main_v72 (ix2 (⟨t.val * 5000 + p.val, hp⟩ : Fin 50000) q) := by
  obtain ⟨-, -, -, -, e0, e1, -⟩ := idx_facts t
  show V c main_v72 (((cfg3.win 1).blk t).view.emb (ix2 p q)) = _
  refine congrArg (V c main_v72) (funext fun a => Fin.ext ?_)
  match a with
  | ⟨0, _⟩ => show win3_1.index t (0 : Fin 2) * 5000 + 1 * p.val = t.val * 5000 + p.val; omega
  | ⟨1, _⟩ => show win3_1.index t (1 : Fin 2) * 64 + 1 * q.val = q.val; omega

/-- Every point's bias block is the whole one-row bias. -/
theorem read_bias (c : Dev nD) (t : Fin cfg3.N) : iblk3 V c 2 t = V c main_v75 := by
  obtain ⟨-, -, -, -, -, -, e4, e5⟩ := idx_facts t
  funext y
  show V c main_v75 (((cfg3.win 2).blk t).view.emb y) = V c main_v75 y
  refine congrArg (V c main_v75) (funext fun a => Fin.ext ?_)
  match a with
  | ⟨0, _⟩ => show win3_2.index t (0 : Fin 2) * 1 + 1 * (y 0).val = (y 0).val; omega
  | ⟨1, _⟩ => show win3_2.index t (1 : Fin 2) * 64 + 1 * (y 1).val = (y 1).val; omega

/-- What point t writes back is block t of the residual function of the arrays the launch finds. -/
theorem flushed_eq (c : Dev nD) (t : Fin cfg3.N) :
    (dat3 V c).flushed 3 t
      = ((cfg3.win 3).blk t).view.read (Elt Ideal) (Gcn.residualN (V c main_v33) (V c main_v72) (V c main_v75)) := by
  show (cfg3.win 3).cut (grid3.coords t) ((dat3 V c).after 3 t) = _
  rw [after3_3]
  unfold out3_3
  rw [View.canon_unit_zero off_zero]
  simp only [View.ld_unit_zero (S := S5000x64) off_zero, View.ld_unit_zero (S := S1x64) off_zero]
  obtain ⟨e6, e7, -⟩ := idx_facts t
  have ht : t.val < 10 := by have h := t.isLt; have hN : cfg3.N = 10 := N_3; omega
  funext j
  obtain ⟨p, q, rfl⟩ : ∃ (p : Fin 5000) (q : Fin 64), j = ix2 p q := ⟨j 0, j 1, eq_ix2 j⟩
  have hp : t.val * 5000 + p.val < 50000 := by have := p.isLt; omega
  have hemb : ((cfg3.win 3).blk t).view.emb (ix2 p q) = ix2 (⟨t.val * 5000 + p.val, hp⟩ : Fin 50000) q := by
    funext a
    refine Fin.ext ?_
    match a with
    | ⟨0, _⟩ => show win3_3.index t (0 : Fin 2) * 5000 + 1 * p.val = t.val * 5000 + p.val; omega
    | ⟨1, _⟩ => show win3_3.index t (1 : Fin 2) * 64 + 1 * q.val = q.val; omega
  show k3_pay1 (F := Ideal) (iblk3 V c 0 t) (iblk3 V c 1 t) (iblk3 V c 2 t) (ix2 p q)
      = Gcn.residual 50000 Gcn.rowsFact (V c main_v33) (V c main_v72) (V c main_v75) (((cfg3.win 3).blk t).view.emb (ix2 p q))
  rw [hemb, Gcn.residual_apply]
  refine (pay_apply (iblk3 V c 0 t) (iblk3 V c 1 t) (iblk3 V c 2 t) p q).trans ?_
  rw [read_bias V c t, read_h V c t p q hp, read_s V c t p q hp]

/-- An index of the output array is in point t's block iff each coordinate is in the block's range on its axis. -/
theorem mem_blk (t : Fin cfg3.N) (i : S50000x64.Idx) :
    i ∈ ((cfg3.win 3).blk t).view.set ↔ ∀ a : Fin 2, win3_3.index t a * S5000x64.size a ≤ (i a).val
      ∧ (i a).val < win3_3.index t a * S5000x64.size a + S5000x64.size a := by
  show i ∈ ((View.whole main_v76).slice (win3_3.rect t)).set ↔ _
  rw [View.set_slice_whole, Rect.mem_set_unit]
  exact Iff.rfl

/-- Every index of the output array is in the block of the point its row falls in. -/
theorem cover (i : S50000x64.Idx) :
    ∃ t : Fin cfg3.N, (cfg3.win 3).flush t = true ∧ i ∈ ((cfg3.win 3).blk t).view.set := by
  have hi0 : (i 0).val < 50000 := (i 0).isLt
  have hi1 : (i 1).val < 64 := (i 1).isLt
  obtain ⟨t, ht⟩ : ∃ t : Fin cfg3.N, t.val = (i 0).val / 5000 :=
    ⟨⟨(i 0).val / 5000, by rw [show cfg3.N = 10 from N_3]; omega⟩, rfl⟩
  obtain ⟨eo0, eo1, -⟩ := idx_facts t
  refine ⟨t, flush3_3 t, ?_⟩
  rw [mem_blk]
  intro a
  match a with
  | ⟨0, _⟩ =>
    show win3_3.index t (0 : Fin 2) * 5000 ≤ (i 0).val ∧ (i 0).val < win3_3.index t (0 : Fin 2) * 5000 + 5000
    omega
  | ⟨1, _⟩ =>
    show win3_3.index t (1 : Fin 2) * 64 ≤ (i 1).val ∧ (i 1).val < win3_3.index t (1 : Fin 2) * 64 + 64
    omega

/-- The output array after the launch. -/
theorem final (c : Dev nD) :
    (dat3 V c).arrAt 3 cfg3.N = Gcn.residualN (V c main_v33) (V c main_v72) (V c main_v75) :=
  (dat3 V c).arrAt_eq_of_cover 3 _ (fun t _ => flushed_eq V c t) cover

end Cert.KernelIdeal.ResidualValue3

end
-- ==== Proof.KResidual6.lean ====
/-
  A residual launch: its output array, after the ten grid points have written their blocks back, is h + (s + b) of the
  three arrays the launch finds, b a one-row bias laid down every row.

  Point t reads rows 5000·t … 5000·t + 4999 of h and of s and the whole bias and writes the same rows of the output; at
  an entry the body computes (h + s) + b, which is h + (s + b): addition of extended reals is associative.
-/
import proofs.«143144_j24309514895388_2_alg».proof.Proof.Gen.KernelIdeal.Frame
import proofs.«143144_j24309514895388_2_alg».proof.Proof.Spec

set_option maxRecDepth 16384

noncomputable section

open scoped BigOperators

namespace Cert.KernelIdeal.ResidualValue6

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem off_zero : (![0, 0] : Fin 2 → Nat) = fun _ => 0 := funext fun a => by fin_cases a <;> rfl

/-- The body's value at (p, q). -/
theorem pay_apply (x0 x1 : Vec Ideal S5000x64 .f32) (x2 : Vec Ideal S1x64 .f32) (p : Fin 5000) (q : Fin 64) :
    k6_pay1 (F := Ideal) x0 x1 x2 (ix2 p q) = x0 (ix2 p q) + (x1 (ix2 p q) + x2 (ix2 (0 : Fin 1) q)) := by
  unfold k6_pay1
  show addf (F := Ideal) (addf (shapeCast S5000x64 x0 _) (shapeCast S5000x64 x1 _)) (broadcastTo S5000x64 (shapeCast S1x64 x2 _) _)
      (ix2 p q) = _
  rw [addf_apply, addf_apply, broadcastTo_1b_ab_apply, shapeCast_self, shapeCast_self, shapeCast_self, add_assoc]

/-- The printed index maps over the grid: the row-tiled windows sit at block (t, 0), the bias at (0, 0). -/
theorem idx_facts : ∀ t : Fin cfg6.N, win6_3.index t (0 : Fin 2) = t.val ∧ win6_3.index t (1 : Fin 2) = 0
    ∧ win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0 :=
  (by decide +kernel : ∀ t : Fin grid6.N, _)

/-- Entry (p, q) of point t's block of h is entry (5000·t + p, q) of h. -/
theorem read_h (c : Dev nD) (t : Fin cfg6.N) (p : Fin 5000) (q : Fin 64) (hp : t.val * 5000 + p.val < 50000) :
    iblk6 V c 0 t (ix2 p q) = V c main_v76 (ix2 (⟨t.val * 5000 + p.val, hp⟩ : Fin 50000) q) := by
  obtain ⟨-, -, e0, e1, -⟩ := idx_facts t
  show V c main_v76 (((cfg6.win 0).blk t).view.emb (ix2 p q)) = _
  refine congrArg (V c main_v76) (funext fun a => Fin.ext ?_)
  match a with
  | ⟨0, _⟩ => show win6_0.index t (0 : Fin 2) * 5000 + 1 * p.val = t.val * 5000 + p.val; omega
  | ⟨1, _⟩ => show win6_0.index t (1 : Fin 2) * 64 + 1 * q.val = q.val; omega

/-- Entry (p, q) of point t's block of s is entry (5000·t + p, q) of s. -/
theorem read_s (c : Dev nD) (t : Fin cfg6.N) (p : Fin 5000) (q : Fin 64) (hp : t.val * 5000 + p.val < 50000) :
    iblk6 V c 1 t (ix2 p q) = V c main_v115 (ix2 (⟨t.val * 5000 + p.val, hp⟩ : Fin 50000) q) := by
  obtain ⟨-, -, -, -, e0, e1, -⟩ := idx_facts t
  show V c main_v115 (((cfg6.win 1).blk t).view.emb (ix2 p q)) = _
  refine congrArg (V c main_v115) (funext fun a => Fin.ext ?_)
  match a with
  | ⟨0, _⟩ => show win6_1.index t (0 : Fin 2) * 5000 + 1 * p.val = t.val * 5000 + p.val; omega
  | ⟨1, _⟩ => show win6_1.index t (1 : Fin 2) * 64 + 1 * q.val = q.val; omega

/-- Every point's bias block is the whole one-row bias. -/
theorem read_bias (c : Dev nD) (t : Fin cfg6.N) : iblk6 V c 2 t = V c main_v118 := by
  obtain ⟨-, -, -, -, -, -, e4, e5⟩ := idx_facts t
  funext y
  show V c main_v118 (((cfg6.win 2).blk t).view.emb y) = V c main_v118 y
  refine congrArg (V c main_v118) (funext fun a => Fin.ext ?_)
  match a with
  | ⟨0, _⟩ => show win6_2.index t (0 : Fin 2) * 1 + 1 * (y 0).val = (y 0).val; omega
  | ⟨1, _⟩ => show win6_2.index t (1 : Fin 2) * 64 + 1 * (y 1).val = (y 1).val; omega

/-- What point t writes back is block t of the residual function of the arrays the launch finds. -/
theorem flushed_eq (c : Dev nD) (t : Fin cfg6.N) :
    (dat6 V c).flushed 3 t
      = ((cfg6.win 3).blk t).view.read (Elt Ideal) (Gcn.residualN (V c main_v76) (V c main_v115) (V c main_v118)) := by
  show (cfg6.win 3).cut (grid6.coords t) ((dat6 V c).after 3 t) = _
  rw [after6_3]
  unfold out6_3
  rw [View.canon_unit_zero off_zero]
  simp only [View.ld_unit_zero (S := S5000x64) off_zero, View.ld_unit_zero (S := S1x64) off_zero]
  obtain ⟨e6, e7, -⟩ := idx_facts t
  have ht : t.val < 10 := by have h := t.isLt; have hN : cfg6.N = 10 := N_6; omega
  funext j
  obtain ⟨p, q, rfl⟩ : ∃ (p : Fin 5000) (q : Fin 64), j = ix2 p q := ⟨j 0, j 1, eq_ix2 j⟩
  have hp : t.val * 5000 + p.val < 50000 := by have := p.isLt; omega
  have hemb : ((cfg6.win 3).blk t).view.emb (ix2 p q) = ix2 (⟨t.val * 5000 + p.val, hp⟩ : Fin 50000) q := by
    funext a
    refine Fin.ext ?_
    match a with
    | ⟨0, _⟩ => show win6_3.index t (0 : Fin 2) * 5000 + 1 * p.val = t.val * 5000 + p.val; omega
    | ⟨1, _⟩ => show win6_3.index t (1 : Fin 2) * 64 + 1 * q.val = q.val; omega
  show k6_pay1 (F := Ideal) (iblk6 V c 0 t) (iblk6 V c 1 t) (iblk6 V c 2 t) (ix2 p q)
      = Gcn.residual 50000 Gcn.rowsFact (V c main_v76) (V c main_v115) (V c main_v118) (((cfg6.win 3).blk t).view.emb (ix2 p q))
  rw [hemb, Gcn.residual_apply]
  refine (pay_apply (iblk6 V c 0 t) (iblk6 V c 1 t) (iblk6 V c 2 t) p q).trans ?_
  rw [read_bias V c t, read_h V c t p q hp, read_s V c t p q hp]

/-- An index of the output array is in point t's block iff each coordinate is in the block's range on its axis. -/
theorem mem_blk (t : Fin cfg6.N) (i : S50000x64.Idx) :
    i ∈ ((cfg6.win 3).blk t).view.set ↔ ∀ a : Fin 2, win6_3.index t a * S5000x64.size a ≤ (i a).val
      ∧ (i a).val < win6_3.index t a * S5000x64.size a + S5000x64.size a := by
  show i ∈ ((View.whole main_v119).slice (win6_3.rect t)).set ↔ _
  rw [View.set_slice_whole, Rect.mem_set_unit]
  exact Iff.rfl

/-- Every index of the output array is in the block of the point its row falls in. -/
theorem cover (i : S50000x64.Idx) :
    ∃ t : Fin cfg6.N, (cfg6.win 3).flush t = true ∧ i ∈ ((cfg6.win 3).blk t).view.set := by
  have hi0 : (i 0).val < 50000 := (i 0).isLt
  have hi1 : (i 1).val < 64 := (i 1).isLt
  obtain ⟨t, ht⟩ : ∃ t : Fin cfg6.N, t.val = (i 0).val / 5000 :=
    ⟨⟨(i 0).val / 5000, by rw [show cfg6.N = 10 from N_6]; omega⟩, rfl⟩
  obtain ⟨eo0, eo1, -⟩ := idx_facts t
  refine ⟨t, flush6_3 t, ?_⟩
  rw [mem_blk]
  intro a
  match a with
  | ⟨0, _⟩ =>
    show win6_3.index t (0 : Fin 2) * 5000 ≤ (i 0).val ∧ (i 0).val < win6_3.index t (0 : Fin 2) * 5000 + 5000
    omega
  | ⟨1, _⟩ =>
    show win6_3.index t (1 : Fin 2) * 64 ≤ (i 1).val ∧ (i 1).val < win6_3.index t (1 : Fin 2) * 64 + 64
    omega

/-- The output array after the launch. -/
theorem final (c : Dev nD) :
    (dat6 V c).arrAt 3 cfg6.N = Gcn.residualN (V c main_v76) (V c main_v115) (V c main_v118) :=
  (dat6 V c).arrAt_eq_of_cover 3 _ (fun t _ => flushed_eq V c t) cover

end Cert.KernelIdeal.ResidualValue6

end
-- ==== Proof.KChain.lean ====
/-
  The fold of buffer contents through the program, one launch at a time.

  The run's frame carries the contents of every buffer from segment to segment. Across a launch only its output array
  changes, to the launch's function (encoder, cardinality estimate, weight transform, residual step) of the arrays it
  was entered with; every other buffer, the launch's input arrays among them, is as it was. With these two facts per
  launch, and the host operations' own results between launches, the contents of any buffer at the end unfold, step by
  step, into one term in the program's arguments.
-/
import proofs.«143144_j24309514895388_2_alg».proof.Proof.KEncode
import proofs.«143144_j24309514895388_2_alg».proof.Proof.KCard1
import proofs.«143144_j24309514895388_2_alg».proof.Proof.KCard4
import proofs.«143144_j24309514895388_2_alg».proof.Proof.KTransform2
import proofs.«143144_j24309514895388_2_alg».proof.Proof.KTransform5
import proofs.«143144_j24309514895388_2_alg».proof.Proof.KResidual3
import proofs.«143144_j24309514895388_2_alg».proof.Proof.KResidual6

set_option maxRecDepth 16384

noncomputable section

namespace Cert.KernelIdeal.Chain

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- At launch of the program a buffer holds the launch memory's contents. -/
theorem W0_at (c : Dev nD) (b : Ref sig .tc) :
    W0 m ρ c (no_index (Proc.devRef .tc b)) = m ((c.tc : Thread nD τ).loc b) := rfl

/-! ## Launch 0 -/

/-- At the launch's exit its output array holds the launch's function of the arrays it was entered with. -/
theorem W4_out (c : Dev nD) :
    W4 m ρ c (no_index (Proc.devRef .tc main_v33)) = Gcn.encodeN (W3 m ρ c (Proc.devRef .tc main_arg0)) (W3 m ρ c (Proc.devRef .tc main_arg4)) (W3 m ρ c (Proc.devRef .tc main_v32)) :=
  (W4_arr m ρ c 3).trans (EncodeValue.final (V3 m ρ) c)

/-- Every other buffer holds at the exit what it held at the entry: the launch writes its output array only. -/
theorem W4_keep (c : Dev nD) {r : Ref sig .tc} (h : r ≠ main_v33) :
    W4 m ρ c (no_index (Proc.devRef .tc r)) = W3 m ρ c (Proc.devRef .tc r) := by
  by_cases h0 : r = main_arg0
  · subst h0
    exact (W4_arr m ρ c 0).trans (((dat0 (V3 m ρ) c).arrAt_in 0 rfl cfg0.N).trans (A_eq0 (V3 m ρ) c 0))
  by_cases h1 : r = main_arg4
  · subst h1
    exact (W4_arr m ρ c 1).trans (((dat0 (V3 m ρ) c).arrAt_in 1 rfl cfg0.N).trans (A_eq0 (V3 m ρ) c 1))
  by_cases h2 : r = main_v32
  · subst h2
    exact (W4_arr m ρ c 2).trans (((dat0 (V3 m ρ) c).arrAt_in 2 rfl cfg0.N).trans (A_eq0 (V3 m ρ) c 2))
  refine W4_of_ne m ρ c r fun w => ?_
  match w with
    | ⟨0, _⟩ => exact fun e => h0 e.symm
    | ⟨1, _⟩ => exact fun e => h1 e.symm
    | ⟨2, _⟩ => exact fun e => h2 e.symm
    | ⟨3, _⟩ => exact fun e => h e.symm

/-! ## Launch 1 -/

/-- At the launch's exit its output array holds the launch's function of the arrays it was entered with. -/
theorem W6_out (c : Dev nD) :
    W6 m ρ c (no_index (Proc.devRef .tc main_v54)) = Gcn.cardWideN (W5 m ρ c (Proc.devRef .tc main_v43)) :=
  (W6_arr m ρ c 1).trans (CardValue1.final (V5 m ρ) c)

/-- Every other buffer holds at the exit what it held at the entry: the launch writes its output array only. -/
theorem W6_keep (c : Dev nD) {r : Ref sig .tc} (h : r ≠ main_v54) :
    W6 m ρ c (no_index (Proc.devRef .tc r)) = W5 m ρ c (Proc.devRef .tc r) := by
  by_cases h0 : r = main_v43
  · subst h0
    exact (W6_arr m ρ c 0).trans (((dat1 (V5 m ρ) c).arrAt_in 0 rfl cfg1.N).trans (A_eq1 (V5 m ρ) c 0))
  refine W6_of_ne m ρ c r fun w => ?_
  match w with
    | ⟨0, _⟩ => exact fun e => h0 e.symm
    | ⟨1, _⟩ => exact fun e => h e.symm

/-! ## Launch 2 -/

/-- At the launch's exit its output array holds the launch's function of the arrays it was entered with. -/
theorem W8_out (c : Dev nD) :
    W8 m ρ c (no_index (Proc.devRef .tc main_v59)) = Gcn.transformN (W7 m ρ c (Proc.devRef .tc main_v33)) (W7 m ρ c (Proc.devRef .tc main_v58)) :=
  (W8_arr m ρ c 2).trans (TransformValue2.final (V7 m ρ) c)

/-- Every other buffer holds at the exit what it held at the entry: the launch writes its output array only. -/
theorem W8_keep (c : Dev nD) {r : Ref sig .tc} (h : r ≠ main_v59) :
    W8 m ρ c (no_index (Proc.devRef .tc r)) = W7 m ρ c (Proc.devRef .tc r) := by
  by_cases h0 : r = main_v33
  · subst h0
    exact (W8_arr m ρ c 0).trans (((dat2 (V7 m ρ) c).arrAt_in 0 rfl cfg2.N).trans (A_eq2 (V7 m ρ) c 0))
  by_cases h1 : r = main_v58
  · subst h1
    exact (W8_arr m ρ c 1).trans (((dat2 (V7 m ρ) c).arrAt_in 1 rfl cfg2.N).trans (A_eq2 (V7 m ρ) c 1))
  refine W8_of_ne m ρ c r fun w => ?_
  match w with
    | ⟨0, _⟩ => exact fun e => h0 e.symm
    | ⟨1, _⟩ => exact fun e => h1 e.symm
    | ⟨2, _⟩ => exact fun e => h e.symm

/-! ## Launch 3 -/

/-- At the launch's exit its output array holds the launch's function of the arrays it was entered with. -/
theorem W10_out (c : Dev nD) :
    W10 m ρ c (no_index (Proc.devRef .tc main_v76)) = Gcn.residualN (W9 m ρ c (Proc.devRef .tc main_v33)) (W9 m ρ c (Proc.devRef .tc main_v72)) (W9 m ρ c (Proc.devRef .tc main_v75)) :=
  (W10_arr m ρ c 3).trans (ResidualValue3.final (V9 m ρ) c)

/-- Every other buffer holds at the exit what it held at the entry: the launch writes its output array only. -/
theorem W10_keep (c : Dev nD) {r : Ref sig .tc} (h : r ≠ main_v76) :
    W10 m ρ c (no_index (Proc.devRef .tc r)) = W9 m ρ c (Proc.devRef .tc r) := by
  by_cases h0 : r = main_v33
  · subst h0
    exact (W10_arr m ρ c 0).trans (((dat3 (V9 m ρ) c).arrAt_in 0 rfl cfg3.N).trans (A_eq3 (V9 m ρ) c 0))
  by_cases h1 : r = main_v72
  · subst h1
    exact (W10_arr m ρ c 1).trans (((dat3 (V9 m ρ) c).arrAt_in 1 rfl cfg3.N).trans (A_eq3 (V9 m ρ) c 1))
  by_cases h2 : r = main_v75
  · subst h2
    exact (W10_arr m ρ c 2).trans (((dat3 (V9 m ρ) c).arrAt_in 2 rfl cfg3.N).trans (A_eq3 (V9 m ρ) c 2))
  refine W10_of_ne m ρ c r fun w => ?_
  match w with
    | ⟨0, _⟩ => exact fun e => h0 e.symm
    | ⟨1, _⟩ => exact fun e => h1 e.symm
    | ⟨2, _⟩ => exact fun e => h2 e.symm
    | ⟨3, _⟩ => exact fun e => h e.symm

/-! ## Launch 4 -/

/-- At the launch's exit its output array holds the launch's function of the arrays it was entered with. -/
theorem W12_out (c : Dev nD) :
    W12 m ρ c (no_index (Proc.devRef .tc main_v97)) = Gcn.cardWideN (W11 m ρ c (Proc.devRef .tc main_v86)) :=
  (W12_arr m ρ c 1).trans (CardValue4.final (V11 m ρ) c)

/-- Every other buffer holds at the exit what it held at the entry: the launch writes its output array only. -/
theorem W12_keep (c : Dev nD) {r : Ref sig .tc} (h : r ≠ main_v97) :
    W12 m ρ c (no_index (Proc.devRef .tc r)) = W11 m ρ c (Proc.devRef .tc r) := by
  by_cases h0 : r = main_v86
  · subst h0
    exact (W12_arr m ρ c 0).trans (((dat4 (V11 m ρ) c).arrAt_in 0 rfl cfg4.N).trans (A_eq4 (V11 m ρ) c 0))
  refine W12_of_ne m ρ c r fun w => ?_
  match w with
    | ⟨0, _⟩ => exact fun e => h0 e.symm
    | ⟨1, _⟩ => exact fun e => h e.symm

/-! ## Launch 5 -/

/-- At the launch's exit its output array holds the launch's function of the arrays it was entered with. -/
theorem W14_out (c : Dev nD) :
    W14 m ρ c (no_index (Proc.devRef .tc main_v102)) = Gcn.transformN (W13 m ρ c (Proc.devRef .tc main_v76)) (W13 m ρ c (Proc.devRef .tc main_v101)) :=
  (W14_arr m ρ c 2).trans (TransformValue5.final (V13 m ρ) c)

/-- Every other buffer holds at the exit what it held at the entry: the launch writes its output array only. -/
theorem W14_keep (c : Dev nD) {r : Ref sig .tc} (h : r ≠ main_v102) :
    W14 m ρ c (no_index (Proc.devRef .tc r)) = W13 m ρ c (Proc.devRef .tc r) := by
  by_cases h0 : r = main_v76
  · subst h0
    exact (W14_arr m ρ c 0).trans (((dat5 (V13 m ρ) c).arrAt_in 0 rfl cfg5.N).trans (A_eq5 (V13 m ρ) c 0))
  by_cases h1 : r = main_v101
  · subst h1
    exact (W14_arr m ρ c 1).trans (((dat5 (V13 m ρ) c).arrAt_in 1 rfl cfg5.N).trans (A_eq5 (V13 m ρ) c 1))
  refine W14_of_ne m ρ c r fun w => ?_
  match w with
    | ⟨0, _⟩ => exact fun e => h0 e.symm
    | ⟨1, _⟩ => exact fun e => h1 e.symm
    | ⟨2, _⟩ => exact fun e => h e.symm

/-! ## Launch 6 -/

/-- At the launch's exit its output array holds the launch's function of the arrays it was entered with. -/
theorem W16_out (c : Dev nD) :
    W16 m ρ c (no_index (Proc.devRef .tc main_v119)) = Gcn.residualN (W15 m ρ c (Proc.devRef .tc main_v76)) (W15 m ρ c (Proc.devRef .tc main_v115)) (W15 m ρ c (Proc.devRef .tc main_v118)) :=
  (W16_arr m ρ c 3).trans (ResidualValue6.final (V15 m ρ) c)

/-- Every other buffer holds at the exit what it held at the entry: the launch writes its output array only. -/
theorem W16_keep (c : Dev nD) {r : Ref sig .tc} (h : r ≠ main_v119) :
    W16 m ρ c (no_index (Proc.devRef .tc r)) = W15 m ρ c (Proc.devRef .tc r) := by
  by_cases h0 : r = main_v76
  · subst h0
    exact (W16_arr m ρ c 0).trans (((dat6 (V15 m ρ) c).arrAt_in 0 rfl cfg6.N).trans (A_eq6 (V15 m ρ) c 0))
  by_cases h1 : r = main_v115
  · subst h1
    exact (W16_arr m ρ c 1).trans (((dat6 (V15 m ρ) c).arrAt_in 1 rfl cfg6.N).trans (A_eq6 (V15 m ρ) c 1))
  by_cases h2 : r = main_v118
  · subst h2
    exact (W16_arr m ρ c 2).trans (((dat6 (V15 m ρ) c).arrAt_in 2 rfl cfg6.N).trans (A_eq6 (V15 m ρ) c 2))
  refine W16_of_ne m ρ c r fun w => ?_
  match w with
    | ⟨0, _⟩ => exact fun e => h0 e.symm
    | ⟨1, _⟩ => exact fun e => h1 e.symm
    | ⟨2, _⟩ => exact fun e => h2 e.symm
    | ⟨3, _⟩ => exact fun e => h e.symm

end Cert.KernelIdeal.Chain

end
-- ==== Proof.KStretch.lean ====
/-
  Two re-layouts of the kernel program's host side, in the reference's spelling.

  Before a launch that adds a bias, the program reshapes the 64-entry bias vector to a one-row matrix; the reference
  broadcasts the vector along axis 1. After a cardinality launch, the program takes column 0 of the 128-lane array and
  flattens it; the reference has the estimates as a vector from the start. Here the contents of those buffers after
  their stretch of host operations are stated in the reference's form, and so is the one array the inlined selection of
  the degree normalisation produces (there the program's typed buffer references add identity casts, which are
  dropped).
-/
import proofs.«143144_j24309514895388_2_alg».proof.Proof.KChain
import proofs.«143144_j24309514895388_2_alg».proof.Proof.PairConcat

set_option maxRecDepth 16384

noncomputable section

namespace Cert.Gcn
open Idealize.ShloMosaic
theorem vecToRow : (⟨1, ![64]⟩ : Shape).BroadcastsInDim ⟨2, ![1, 64]⟩ ![1] := by decide
end Cert.Gcn

namespace Cert.KernelIdeal.Chain

open Cert.KernelIdeal Cert.KernelIdeal.Gen
open Idealize.ShloMosaic Idealize.ShloMosaic.TcCoe Idealize.SL.Sem Idealize.ShloMosaic.StableHlo

section AnyInstance
variable {F : FTy → Type} [FloatOps F] (m : (ℓ : Loc nD τ sig) → Buf (Elt F) ℓ) (ρ : Dev nD → PrngReg)

/-- The buffer contents after the inlined selection (the degree normalisation's `where`), under a name of their own: the
    stretch that follows is read through this name, so that a read of the selected array can be recognised. -/
def afterWhere (c : Dev nD) : Valuation τ sig (Elt F) := W2 m ρ c

/-- The stretch after the selection, read at any buffer but the one-row encoder bias: its operations applied to the
    contents after the selection. -/
theorem W3_read (c : Dev nD) {r : Ref sig .tc} (h : r ≠ main_v32) :
    W3 m ρ c (no_index (Proc.devRef .tc r)) = StableHlo.after hostOps0_2 (afterWhere m ρ c) (Proc.devRef .tc r) := rfl

/-- After the selection the selected array is the selection of the three arrays the stretch finds, the third the zero
    constant broadcast to every node (the program's typed buffer references add identity casts, dropped here). -/
theorem afterWhere_select (c : Dev nD) :
    afterWhere m ρ c (no_index (Proc.devRef .tc main_v16))
      = select (W1 m ρ c (Proc.devRef .tc main_v12)) (W1 m ρ c (Proc.devRef .tc main_v15))
          (broadcastInDim S50000 ![] Gen.bcast_S_S50000 (id (W1 m ρ c (Proc.devRef .tc main_cst_3)))) := by
  unfold afterWhere
  simp (disch := decide) only [W2, W1, hostOps0, hostOps0_1, after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', Gcn.concatenate_pair_eq]
  rfl

/-- Any other buffer after the selection: the selection's operations applied to the contents before it. -/
theorem afterWhere_other (c : Dev nD) {r : Ref sig .tc} (h : r ≠ main_v16) :
    afterWhere m ρ c (no_index (Proc.devRef .tc r)) = StableHlo.after hostOps0_1 (W1 m ρ c) (Proc.devRef .tc r) := rfl

end AnyInstance

variable (m : (ℓ : Loc nD τ sig) → Buf (Elt Ideal) ℓ) (ρ : Dev nD → PrngReg)

/-- After this stretch the one-row bias buffer holds the bias vector laid as one row: the program reshapes the vector,
    which is the same array as broadcasting it along axis 1. -/
theorem W3_bias (c : Dev nD) :
    W3 m ρ c (no_index (Proc.devRef .tc main_v32))
      = broadcastInDim S1x64 ![1] Gcn.vecToRow (W3 m ρ c (Proc.devRef .tc main_arg5)) := by
  have e : W3 m ρ c (Proc.devRef .tc main_v32)
      = shapeCast S1x64 (W3 m ρ c (Proc.devRef .tc main_arg5)) Gen.shapeCasts_S64_S1x64 := by
    simp (disch := decide) only [W3, hostOps0_2, after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne']
    try rfl
  exact e.trans (Gcn.oneRow_eq _ Gcn.vecToRow Gen.shapeCasts_S64_S1x64).symm

/-- After this stretch the flattened column 0 of the launch's 128-lane cardinality array is the estimate itself. -/
theorem W7_card (c : Dev nD) :
    W7 m ρ c (no_index (Proc.devRef .tc main_v56)) = Gcn.cardN (W5 m ρ c (Proc.devRef .tc main_v43)) := by
  have e : W7 m ρ c (Proc.devRef .tc main_v56)
      = shapeCast S50000 (extractStridedSlice S50000x1 ![0, 0] (Gcn.cardWideN (W5 m ρ c (Proc.devRef .tc main_v43)))
          Gen.slices_S50000x128_S50000x1_0_0) Gen.shapeCasts_S50000x1_S50000 := by
    simp (disch := decide) only [W7, hostOps2, after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', Chain.W6_out]
    try rfl
  exact e.trans (Gcn.cardWide_column 50000 _ _ _ _ _ _ _)

/-- After this stretch the one-row bias buffer holds the bias vector laid as one row: the program reshapes the vector,
    which is the same array as broadcasting it along axis 1. -/
theorem W9_bias (c : Dev nD) :
    W9 m ρ c (no_index (Proc.devRef .tc main_v75))
      = broadcastInDim S1x64 ![1] Gcn.vecToRow (W9 m ρ c (Proc.devRef .tc main_v74)) := by
  have e : W9 m ρ c (Proc.devRef .tc main_v75)
      = shapeCast S1x64 (W9 m ρ c (Proc.devRef .tc main_v74)) Gen.shapeCasts_S64_S1x64 := by
    simp (disch := decide) only [W9, hostOps3, after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne']
    try rfl
  exact e.trans (Gcn.oneRow_eq _ Gcn.vecToRow Gen.shapeCasts_S64_S1x64).symm

/-- After this stretch the flattened column 0 of the launch's 128-lane cardinality array is the estimate itself. -/
theorem W13_card (c : Dev nD) :
    W13 m ρ c (no_index (Proc.devRef .tc main_v99)) = Gcn.cardN (W11 m ρ c (Proc.devRef .tc main_v86)) := by
  have e : W13 m ρ c (Proc.devRef .tc main_v99)
      = shapeCast S50000 (extractStridedSlice S50000x1 ![0, 0] (Gcn.cardWideN (W11 m ρ c (Proc.devRef .tc main_v86)))
          Gen.slices_S50000x128_S50000x1_0_0) Gen.shapeCasts_S50000x1_S50000 := by
    simp (disch := decide) only [W13, hostOps5, after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', Chain.W12_out]
    try rfl
  exact e.trans (Gcn.cardWide_column 50000 _ _ _ _ _ _ _)

/-- After this stretch the one-row bias buffer holds the bias vector laid as one row: the program reshapes the vector,
    which is the same array as broadcasting it along axis 1. -/
theorem W15_bias (c : Dev nD) :
    W15 m ρ c (no_index (Proc.devRef .tc main_v118))
      = broadcastInDim S1x64 ![1] Gcn.vecToRow (W15 m ρ c (Proc.devRef .tc main_v117)) := by
  have e : W15 m ρ c (Proc.devRef .tc main_v118)
      = shapeCast S1x64 (W15 m ρ c (Proc.devRef .tc main_v117)) Gen.shapeCasts_S64_S1x64 := by
    simp (disch := decide) only [W15, hostOps6, after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne']
    try rfl
  exact e.trans (Gcn.oneRow_eq _ Gcn.vecToRow Gen.shapeCasts_S64_S1x64).symm

end Cert.KernelIdeal.Chain

end
-- ==== Proof.Bridge.lean ====
/-
  The reference's results are the kernel's.

  The reference program's run ends with each result at one composed term of the arguments. The kernel program's run
  ends with each result at the last stage of its fold of buffer contents, which unfolds — host operation by host
  operation, launch by launch — into a composed term of the same arguments: the same graph operations (the self-looped
  edge lists, the degree normalisation, the neighbourhood gathers and the scatter-reductions) around the four dense
  steps, which for the kernel are the launches' functions and for the reference the host's own spelling of them. A
  launch's function is, by definition, that spelling; the two re-layouts in which the programs differ (a bias vector made
  a one-row matrix, and column 0 of the 128-lane cardinality array) are already stated in the reference's form where
  the fold passes them. So once both sides are written out in the arguments — the reference's arguments being the
  kernel's, by the hypothesis of agreement — they are the same term. Joins of two arrays are written as a function of
  the two arrays on both sides, so that the arguments can be rewritten inside them.
-/
import proofs.«143144_j24309514895388_2_alg».proof.Proof.KStretch
import proofs.«143144_j24309514895388_2_alg».proof.Proof.RefRun

set_option maxRecDepth 65536

noncomputable section

namespace Cert.KernelIdeal.Bridge

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)
  (m' : (ℓ : Loc Cert.ReferenceIdeal.nD Cert.ReferenceIdeal.τ Cert.ReferenceIdeal.sig) → Buf (Elt Ideal) ℓ)

/- The host operations are kept closed while the two sides are compared: they are the same operations on both sides, and
   nothing about them is used beyond that. -/
attribute [local irreducible] Host.scatterAdd Host.scatter Host.gather select cmpf cmpi addi mulf addf maximumf Host.rsqrt Host.exp
  Host.negf Host.divf Host.reduceAdd sitofp broadcastInDim shapeCast extractStridedSlice iotaInDim constant constantI concatenate
attribute [local irreducible] Idealize.ShloMosaic.instFloatOpsIdeal

set_option maxHeartbeats 40000000 in
/-- The reference's run from a memory agreeing with the kernel's on the arguments: it terminates, nothing faulting, with
    each result at the kernel's final contents of the corresponding result buffer, and the arguments unchanged. -/
theorem reference_run (ρ' : Dev Cert.ReferenceIdeal.nD → PrngReg)
    (hagree : ∀ c : Dev nD,
      m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)
      ∧ m' ((c.tc : Thread Cert.ReferenceIdeal.nD Cert.ReferenceIdeal.τ).loc Cert.ReferenceIdeal.main_arg5) = m ((c.tc : Thread nD τ).loc main_arg5)
      ∧ m' ((c.tc : Thread Cert.ReferenceIdeal.nD Cert.ReferenceIdeal.τ).loc Cert.ReferenceIdeal.main_arg6) = m ((c.tc : Thread nD τ).loc main_arg6)
      ∧ m' ((c.tc : Thread Cert.ReferenceIdeal.nD Cert.ReferenceIdeal.τ).loc Cert.ReferenceIdeal.main_arg7) = m ((c.tc : Thread nD τ).loc main_arg7)) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v135) = W17 m ρ c (Proc.devRef .tc main_v119)
      ∧ r.2.mem ((c.tc : Thread Cert.ReferenceIdeal.nD Cert.ReferenceIdeal.τ).loc Cert.ReferenceIdeal.main_v138) = W17 m ρ c (Proc.devRef .tc main_v122)
      ∧ r.2.mem ((c.tc : Thread Cert.ReferenceIdeal.nD Cert.ReferenceIdeal.τ).loc Cert.ReferenceIdeal.main_v105) = W17 m ρ c (Proc.devRef .tc main_v96)
      ∧ r.2.mem ((c.tc : Thread Cert.ReferenceIdeal.nD Cert.ReferenceIdeal.τ).loc Cert.ReferenceIdeal.main_v95) = W17 m ρ c (Proc.devRef .tc main_v86)
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)) :=
  (θ_run Cert.ReferenceIdeal.defs _ _).mono (fun r h c => by
    obtain ⟨h0, h1, h2, h3, h4, h5, h6, h7⟩ := hagree c
    obtain ⟨e0, e1, e2, e3, ea⟩ := h c
    refine ⟨e0.trans ?_, e1.trans ?_, e2.trans ?_, e3.trans ?_, ea⟩
    · unfold Cert.ReferenceIdeal.ValueP.res_main_v135
      simp only [Gcn.concatenate_pair_eq, h0, h1, h2, h3, h4, h5, h6, h7]
      conv_rhs => simp (disch := decide) only [W17, W15, W13, W11, W9, W7, W5, W1,
    hostOps0, hostOps0_1, hostOps0_2, hostOps1, hostOps2, hostOps3, hostOps4, hostOps5, hostOps6, hostOps7,
    after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne',
    Chain.W0_at, ↓Chain.W3_read, ↓Chain.W3_bias, Chain.afterWhere_select, Chain.afterWhere_other,
    Chain.W4_out, Chain.W4_keep, Chain.W6_out, Chain.W6_keep,
    ↓Chain.W7_card, Chain.W8_out, Chain.W8_keep, ↓Chain.W9_bias, Chain.W10_out, Chain.W10_keep,
    Chain.W12_out, Chain.W12_keep, ↓Chain.W13_card, Chain.W14_out, Chain.W14_keep, ↓Chain.W15_bias,
    Chain.W16_out, Chain.W16_keep, Gcn.concatenate_pair_eq]
      rfl
    · unfold Cert.ReferenceIdeal.ValueP.res_main_v138
      simp only [Gcn.concatenate_pair_eq, h0, h1, h2, h3, h4, h5, h6, h7]
      conv_rhs => simp (disch := decide) only [W17, W15, W13, W11, W9, W7, W5, W1,
    hostOps0, hostOps0_1, hostOps0_2, hostOps1, hostOps2, hostOps3, hostOps4, hostOps5, hostOps6, hostOps7,
    after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne',
    Chain.W0_at, ↓Chain.W3_read, ↓Chain.W3_bias, Chain.afterWhere_select, Chain.afterWhere_other,
    Chain.W4_out, Chain.W4_keep, Chain.W6_out, Chain.W6_keep,
    ↓Chain.W7_card, Chain.W8_out, Chain.W8_keep, ↓Chain.W9_bias, Chain.W10_out, Chain.W10_keep,
    Chain.W12_out, Chain.W12_keep, ↓Chain.W13_card, Chain.W14_out, Chain.W14_keep, ↓Chain.W15_bias,
    Chain.W16_out, Chain.W16_keep, Gcn.concatenate_pair_eq]
      rfl
    · simp only [Gcn.concatenate_pair_eq, h0, h1, h2, h3, h4, h5, h6, h7]
      conv_rhs => simp (disch := decide) only [W17, W15, W13, W11, W9, W7, W5, W1,
    hostOps0, hostOps0_1, hostOps0_2, hostOps1, hostOps2, hostOps3, hostOps4, hostOps5, hostOps6, hostOps7,
    after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne',
    Chain.W0_at, ↓Chain.W3_read, ↓Chain.W3_bias, Chain.afterWhere_select, Chain.afterWhere_other,
    Chain.W4_out, Chain.W4_keep, Chain.W6_out, Chain.W6_keep,
    ↓Chain.W7_card, Chain.W8_out, Chain.W8_keep, ↓Chain.W9_bias, Chain.W10_out, Chain.W10_keep,
    Chain.W12_out, Chain.W12_keep, ↓Chain.W13_card, Chain.W14_out, Chain.W14_keep, ↓Chain.W15_bias,
    Chain.W16_out, Chain.W16_keep, Gcn.concatenate_pair_eq]
      rfl
    · simp only [Gcn.concatenate_pair_eq, h0, h1, h2, h3, h4, h5, h6, h7]
      conv_rhs => simp (disch := decide) only [W17, W15, W13, W11, W9, W7, W5, W1,
    hostOps0, hostOps0_1, hostOps0_2, hostOps1, hostOps2, hostOps3, hostOps4, hostOps5, hostOps6, hostOps7,
    after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne',
    Chain.W0_at, ↓Chain.W3_read, ↓Chain.W3_bias, Chain.afterWhere_select, Chain.afterWhere_other,
    Chain.W4_out, Chain.W4_keep, Chain.W6_out, Chain.W6_keep,
    ↓Chain.W7_card, Chain.W8_out, Chain.W8_keep, ↓Chain.W9_bias, Chain.W10_out, Chain.W10_keep,
    Chain.W12_out, Chain.W12_keep, ↓Chain.W13_card, Chain.W14_out, Chain.W14_keep, ↓Chain.W15_bias,
    Chain.W16_out, Chain.W16_keep, Gcn.concatenate_pair_eq]
      rfl)
    (Cert.ReferenceIdeal.ValueP.run (F := Ideal) m' ρ')

end Cert.KernelIdeal.Bridge

end
-- ==== Proof.lean ====
/-
  The certificate of the graph network's kernel against its reference, over the extended reals.

  The kernel program is seven tiled launches — an encoder x · W + b, and twice a HyperLogLog cardinality estimate, a
  weight transform h · W and a residual step h + s + b — among the host operations that build the self-looped edge
  lists, the degree normalisation, and the neighbourhood gathers and scatter-reductions; the reference program is host
  operations only. Both programs' frames are their runs with the results dropped. The idealization rewrote nothing.
  For the value claim the kernel's four results are named as the final contents of its result buffers, and the
  reference's run ends at the same contents: each launch's output array is the dense step's function of the launch's
  input arrays (a matrix product into a zero accumulator is the plain product; a lane sum is the row sum;
  0 − g is −g and the product with the fixed word commutes; (h + s) + b is h + (s + b); a change of float format is
  the identity), and the graph operations around the launches are the same in both programs.
-/
import proofs.«143144_j24309514895388_2_alg».proof.Defs
import proofs.«143144_j24309514895388_2_alg».proof.Proof.Gen.Kernel
import proofs.«143144_j24309514895388_2_alg».proof.Proof.Gen.Kernel.Skeleton
import proofs.«143144_j24309514895388_2_alg».proof.Proof.Gen.Kernel.Launch
import proofs.«143144_j24309514895388_2_alg».proof.Proof.Gen.Kernel.Points
import proofs.«143144_j24309514895388_2_alg».proof.Proof.Gen.Kernel.Frame
import proofs.«143144_j24309514895388_2_alg».proof.Proof.Gen.KernelIdeal
import proofs.«143144_j24309514895388_2_alg».proof.Proof.Gen.KernelIdeal.Skeleton
import proofs.«143144_j24309514895388_2_alg».proof.Proof.Gen.KernelIdeal.Launch
import proofs.«143144_j24309514895388_2_alg».proof.Proof.Gen.KernelIdeal.Points
import proofs.«143144_j24309514895388_2_alg».proof.Proof.Gen.KernelIdeal.Frame
import proofs.«143144_j24309514895388_2_alg».proof.Proof.Gen.ReferenceIdeal
import proofs.«143144_j24309514895388_2_alg».proof.Proof.Gen.Pre_finite_inputs
import proofs.«143144_j24309514895388_2_alg».proof.Proof.KRun
import proofs.«143144_j24309514895388_2_alg».proof.Proof.RefRun
import proofs.«143144_j24309514895388_2_alg».proof.Proof.Bridge
import Idealize.ShloMosaic.Adequacy
import Idealize.ShloMosaic.Init

noncomputable section

namespace Cert.Proof

open Idealize.ShloMosaic Idealize.ShloMosaic.TcCoe Idealize.SL.Sem

/-- The kernel program as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its run with the results dropped. -/
theorem frame_referenceIdeal : Cert.frame_ReferenceIdeal := fun m ρ _ =>
  (θ_run Cert.ReferenceIdeal.defs _ _).mono (fun _ h c => (h c).2.2.2.2) (Cert.ReferenceIdeal.ValueP.run (F := Ideal) m ρ)

/-- The two idealized programs end with equal results: the kernel's final contents of its four result buffers. -/
theorem algebraic : Cert.algebraic_KernelIdeal_ReferenceIdeal := fun m ρ m' ρ' _ hagree =>
  ⟨fun c => Cert.KernelIdeal.Gen.W17 m ρ c (Proc.devRef .tc Cert.KernelIdeal.main_v119),
   fun c => Cert.KernelIdeal.Gen.W17 m ρ c (Proc.devRef .tc Cert.KernelIdeal.main_v122),
   fun c => Cert.KernelIdeal.Gen.W17 m ρ c (Proc.devRef .tc Cert.KernelIdeal.main_v96),
   fun c => Cert.KernelIdeal.Gen.W17 m ρ c (Proc.devRef .tc Cert.KernelIdeal.main_v86),
   Cert.KernelIdeal.RunValue.run_results m ρ,
   Cert.KernelIdeal.Bridge.reference_run m ρ m' ρ' hagree⟩

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
